-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x512 .f32) (main_arg1 : IVec S2x1600000 32) (main_arg2 : FVec F S512x128 .f32) (main_arg3 : FVec F S128 .f32) (main_arg4 : FVec F S128x32 .f32) (main_arg5 : FVec F S32 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x32 .f32 := Host.absf main_arg4
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg5 main_v13 main_v16
-- ==== Kernel.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x32 : Shape := ⟨2, ![128, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x128 : Shape := ⟨2, ![100000, 128]⟩
abbrev S4000x512 : Shape := ⟨2, ![4000, 512]⟩
abbrev S4000x1 : Shape := ⟨2, ![4000, 1]⟩
abbrev S4000x128 : Shape := ⟨2, ![4000, 128]⟩
abbrev S1700000x128 : Shape := ⟨2, ![1700000, 128]⟩
abbrev S1x128 : Shape := ⟨2, ![1, 128]⟩
abbrev S100000x32 : Shape := ⟨2, ![100000, 32]⟩
abbrev S5000x128 : Shape := ⟨2, ![5000, 128]⟩
abbrev S5000x1 : Shape := ⟨2, ![5000, 1]⟩
abbrev S5000x32 : Shape := ⟨2, ![5000, 32]⟩
abbrev S1700000x32 : Shape := ⟨2, ![1700000, 32]⟩
abbrev S1x32 : Shape := ⟨2, ![1, 32]⟩

abbrev nBuf : Space → Nat
  | .hbm => 64
  | .vmem => 15
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .bf16⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000x128, .bf16⟩
  | .hbm, ⟨38, _⟩ => ⟨S1700000x128, .f32⟩
  | .hbm, ⟨39, _⟩ => ⟨S_, .f32⟩
  | .hbm, ⟨40, _⟩ => ⟨S100000x128, .f32⟩
  | .hbm, ⟨41, _⟩ => ⟨S1700000x1, .i32⟩
  | .hbm, ⟨42, _⟩ => ⟨S100000x128, .f32⟩
  | .hbm, ⟨43, _⟩ => ⟨S1x128, .f32⟩
  | .hbm, ⟨44, _⟩ => ⟨S100000x32, .bf16⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x32, .bf16⟩
  | .hbm, ⟨54, _⟩ => ⟨S1700000x32, .f32⟩
  | .hbm, ⟨55, _⟩ => ⟨S_, .f32⟩
  | .hbm, ⟨56, _⟩ => ⟨S100000x32, .f32⟩
  | .hbm, ⟨57, _⟩ => ⟨S1700000x1, .i32⟩
  | .hbm, ⟨58, _⟩ => ⟨S100000x32, .f32⟩
  | .hbm, ⟨59, _⟩ => ⟨S100000x32, .f32⟩
  | .hbm, ⟨60, _⟩ => ⟨S100000x32, .f32⟩
  | .hbm, ⟨61, _⟩ => ⟨S1x32, .f32⟩
  | .hbm, ⟨62, _⟩ => ⟨S100000x32, .f32⟩
  | .hbm, ⟨63, _⟩ => ⟨S100000x32, .f32⟩
  | .local _ .vmem, ⟨0, _⟩ => ⟨S4000x512, .f32⟩
  | .local _ .vmem, ⟨1, _⟩ => ⟨S4000x512, .f32⟩
  | .local _ .vmem, ⟨2, _⟩ => ⟨S512x128, .f32⟩
  | .local _ .vmem, ⟨3, _⟩ => ⟨S4000x1, .f32⟩
  | .local _ .vmem, ⟨4, _⟩ => ⟨S4000x1, .f32⟩
  | .local _ .vmem, ⟨5, _⟩ => ⟨S4000x128, .bf16⟩
  | .local _ .vmem, ⟨6, _⟩ => ⟨S4000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x32, .f32⟩
  | .local _ .vmem, ⟨13, _⟩ => ⟨S5000x32, .bf16⟩
  | .local _ .vmem, ⟨14, _⟩ => ⟨S5000x32, .bf16⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x32 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x32_S128x32_0_0 : ∀ a, (![0, 0] : Fin 2 → Nat) a + S128x32.size a ≤ S128x32.size a
  h_S128x32 : 0 < S128x32.numel
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  packedbf16_S5000x32_S5000x32_0_0 : (Rect.unit (s := S5000x32) ![0, 0] S5000x32.size inb_S5000x32_S5000x32_0_0).PackedRows (EltTy.packing .bf16)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  dot_S4000x512_S512x128_S4000x128_1_0_0_1_n_n_wf : DotDims.WF S4000x512 S512x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x32_S5000x32_1_0_0_1_n_n_wf : DotDims.WF S5000x128 S128x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .bf16 = 32 ∨ (Rect.block (s := S100000x128) S4000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x32.size a ≤ S128x32.size a
  hwx1_3 : ∀ i : grid1.Coords, EltTy.bits .f32 = 32 ∨ (Rect.block (s := S128x32) S128x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x32.size a ≤ S100000x32.size a
  hwx1_4 : ∀ i : grid1.Coords, EltTy.bits .bf16 = 32 ∨ (Rect.block (s := S100000x32) S5000x32.size (cc1_transform_4 i) (hinb1_4 i)).WholeWords (EltTy.packing .bf16)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S4000x512_S512x128_S4000x128_1_0_0_1_n_n : DotDims S4000x512 S512x128 S4000x128 where
  lhsContracting := [1]
  rhsContracting := [0]
  lhsNonContracting := [0]
  rhsNonContracting := [1]
  lhsBatch := []
  rhsBatch := []
  wf := dot_S4000x512_S512x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S5000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x32 : Shape := ⟨2, ![128, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 89
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x32, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x32, .f32⟩
  | .hbm, ⟨79, _⟩ => ⟨S1700000x1, .f32⟩
  | .hbm, ⟨80, _⟩ => ⟨S1700000x32, .f32⟩
  | .hbm, ⟨81, _⟩ => ⟨S1700000x32, .f32⟩
  | .hbm, ⟨82, _⟩ => ⟨S_, .f32⟩
  | .hbm, ⟨83, _⟩ => ⟨S100000x32, .f32⟩
  | .hbm, ⟨84, _⟩ => ⟨S1700000x1, .i32⟩
  | .hbm, ⟨85, _⟩ => ⟨S100000x32, .f32⟩
  | .hbm, ⟨86, _⟩ => ⟨S1x32, .f32⟩
  | .hbm, ⟨87, _⟩ => ⟨S100000x32, .f32⟩
  | .hbm, ⟨88, _⟩ => ⟨S100000x32, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x512_S512x128_S100000x128_1_0_0_1_n_n_wf : DotDims.WF S100000x512 S512x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x32_S100000x32_1_0_0_1_n_n_wf : DotDims.WF S100000x128 S128x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KernelRun.lean ====
/-
  The idealized kernel's run, with its result array named.

  The program is seven segments: three stretches of host operations, the first pallas_call, a stretch, the second
  pallas_call, a last stretch. Running them in order from any memory, every weakly fair execution terminates without a
  fault, the six argument arrays end as they were launched, and the result array ends at the last boundary's contents:
  the fold of the last stretch's operations over what the second pallas_call leaves, which in turn is the fold of the
  middle stretch over what the first one leaves, and so on back to the launch memory. The other modules read that fold.
-/
import proofs.«148502_j3307124818738_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting; the result array ends at the last
    boundary's contents and the argument arrays as launched. -/
theorem run : θ_run defs (onTc (τ := τ) (main (F := F))) ⟨m, fun _ => 0, ρ⟩ (fun r => ∀ c : Dev nD,
      r.2.mem ((c.tc : Thread nD τ).loc main_v45) = W7 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v45 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.RunValue

end
-- ==== Proof.KernelHost.lean ====
/-
  The idealized kernel's host stretches read back, over ANY contents V of the buffers a stretch starts from.

  A stretch is a line of host operations; what a buffer holds after it is the stretch's operations composed, applied
  to what the stretch's operands held before it, and a buffer no operation of the stretch writes holds what it held.
  Stated here: the column form of the node scaling after the first stretches; the first aggregation and the bias row
  after the middle stretch; the result after the last stretch; and the edge words and the node scaling as the SAME
  functions of the edge array that the reference program computes (its first operations are the kernel's, word for word).
-/
import proofs.«148502_j3307124818738_2_alg».proof.Proof.Gen.KernelIdeal.Frame
import proofs.«148502_j3307124818738_2_alg».proof.Proof.RefReadP
import Idealize.ShloMosaic.PureOps.Ideal
import Idealize.ShloMosaic.Lib.StableHlo.Run

set_option maxRecDepth 16384

noncomputable section

namespace Cert.KernelIdeal.HostRead

open Idealize.ShloMosaic Idealize.ShloMosaic.TcCoe Idealize.SL.Sem Idealize.ShloMosaic.StableHlo
open Cert.KernelIdeal Cert.KernelIdeal.Gen

variable (V : Valuation τ sig (Elt Ideal))

/-- A buffer that no operation of a stretch writes holds after it what it held before. -/
macro "host_pass" ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## The first stretches: edge words, node scaling -/

/-- The source words: the first row of the edge array followed by 0, 1, …, N - 1. -/
theorem ops0_v3 : StableHlo.after (hostOps0 (F := Ideal)) V (Proc.devRef .tc main_v3)
    = Cert.ReferenceIdeal.ReadP.val_main_v3 (F := Ideal) (V (Proc.devRef .tc main_arg1)) := by
  after_results; rfl
/-- The target words: the second row of the edge array followed by 0, 1, …, N - 1. -/
theorem ops0_v6 : StableHlo.after (hostOps0 (F := Ideal)) V (Proc.devRef .tc main_v6)
    = Cert.ReferenceIdeal.ReadP.val_main_v6 (F := Ideal) (V (Proc.devRef .tc main_arg1)) := by
  after_results; rfl
/-- The degree comparison and the reciprocal square root of the degrees. -/
theorem ops0_v12 : StableHlo.after (hostOps0 (F := Ideal)) V (Proc.devRef .tc main_v12)
    = Cert.ReferenceIdeal.ReadP.val_main_v12 (F := Ideal) (V (Proc.devRef .tc main_arg1)) := by
  after_results; rfl
theorem ops0_v13 : StableHlo.after (hostOps0 (F := Ideal)) V (Proc.devRef .tc main_v13)
    = Cert.ReferenceIdeal.ReadP.val_main_v13 (F := Ideal) (V (Proc.devRef .tc main_arg1)) := by
  after_results; rfl
theorem ops0_cst2 : StableHlo.after (hostOps0 (F := Ideal)) V (Proc.devRef .tc main_cst_2)
    = Cert.ReferenceIdeal.ReadP.val_main_cst_2 (F := Ideal) := by
  after_results; rfl
/-- The node scaling `where(deg > 0, rsqrt deg, 0)` from the comparison, the reciprocal root and the zero. -/
theorem ops0_1_v14 : StableHlo.after (hostOps0_1 (F := Ideal)) V (Proc.devRef .tc main_v14)
    = select (V (Proc.devRef .tc main_v12)) (V (Proc.devRef .tc main_v13))
        (broadcastInDim S100000 ![] bcast_S_S100000 (V (Proc.devRef .tc main_cst_2))) := by
  after_results; rfl
/-- The node scaling as an [N, 1] column. -/
theorem ops0_2_v15 : StableHlo.after (hostOps0_2 (F := Ideal)) V (Proc.devRef .tc main_v15)
    = shapeCast S100000x1 (V (Proc.devRef .tc main_v14)) shapeCasts_S100000_S100000x1 := by
  after_results; rfl

/-! ## The middle stretch: the first aggregation and the bias row -/

theorem ops1_v27 : StableHlo.after (hostOps1 (F := Ideal)) V (Proc.devRef .tc main_v27)
    = Host.scatterAdd (F := Ideal) scatter_S100000x128_S1700000x1_S1700000x128_1_0_0_1
        (broadcastInDim S100000x128 ![] bcast_S_S100000x128 (constant (F := Ideal) S_ .f32 0x00000000#32))
        (broadcastInDim S1700000x1 ![0] bcast_S1700000_S1700000x1_0 (V (Proc.devRef .tc main_v6)))
        (extf (F := Ideal) .f32 (Host.gather gather_S100000x128_S1700000x1_S1700000x128_1_0_n_n_0_1_1128 (V (Proc.devRef .tc main_v16))
          (broadcastInDim S1700000x1 ![0] bcast_S1700000_S1700000x1_0
            (select (cmpi .slt (V (Proc.devRef .tc main_v3)) (broadcastInDim S1700000 ![] bcast_S_S1700000 (constantI S_ 32 0#32)))
              (addi (V (Proc.devRef .tc main_v3)) (broadcastInDim S1700000 ![] bcast_S_S1700000 (constantI S_ 32 100000#32)))
              (V (Proc.devRef .tc main_v3))))) bitsLt_bf16_f32) := by
  after_results
theorem ops1_v28 : StableHlo.after (hostOps1 (F := Ideal)) V (Proc.devRef .tc main_v28)
    = shapeCast S1x128 (V (Proc.devRef .tc main_arg3)) shapeCasts_S128_S1x128 := by
  after_results; rfl

/-! ## The last stretch: the second aggregation, scaled, plus the output bias -/

set_option maxHeartbeats 4000000 in
theorem ops2_v45 : StableHlo.after (hostOps2 (F := Ideal)) V (Proc.devRef .tc main_v45)
    = addf (F := Ideal) (mulf (F := Ideal) (broadcastInDim S100000x32 ![0, 1] bcast_S100000x1_S100000x32_0_1 (V (Proc.devRef .tc main_v15)))
        (Host.scatterAdd (F := Ideal) scatter_S100000x32_S1700000x1_S1700000x32_1_0_0_1
          (broadcastInDim S100000x32 ![] bcast_S_S100000x32 (constant (F := Ideal) S_ .f32 0x00000000#32))
          (broadcastInDim S1700000x1 ![0] bcast_S1700000_S1700000x1_0 (V (Proc.devRef .tc main_v6)))
          (extf (F := Ideal) .f32 (Host.gather gather_S100000x32_S1700000x1_S1700000x32_1_0_n_n_0_1_132 (V (Proc.devRef .tc main_v29))
            (broadcastInDim S1700000x1 ![0] bcast_S1700000_S1700000x1_0
              (select (cmpi .slt (V (Proc.devRef .tc main_v3)) (broadcastInDim S1700000 ![] bcast_S_S1700000 (constantI S_ 32 0#32)))
                (addi (V (Proc.devRef .tc main_v3)) (broadcastInDim S1700000 ![] bcast_S_S1700000 (constantI S_ 32 100000#32)))
                (V (Proc.devRef .tc main_v3))))) bitsLt_bf16_f32)))
      (broadcastInDim S100000x32 ![0, 1] bcast_S1x32_S100000x32_0_1
        (broadcastInDim S1x32 ![1] bcast_S32_S1x32_1 (V (Proc.devRef .tc main_arg5)))) := by
  after_results_simp <;> rfl

/-! ## What the stretches leave alone -/

theorem pass0_1 (b : Ref sig .tc) (hb : b ≠ main_call0_v0 ∧ b ≠ main_call0_v1 ∧ b ≠ main_v14) :
    StableHlo.after (hostOps0_1 (F := Ideal)) V (Proc.devRef .tc b) = V (Proc.devRef .tc b) := by
  refine StableHlo.after_of_forall_not_mem _ _ (List.forall_iff_forall_mem.mp ?_)
  simp only [hostOps0_1, List.Forall, StableHlo.unary_writes, StableHlo.ternary_writes, Finset.mem_singleton]
  exact ⟨StableHlo.devRef_ne_of_ne hb.1, StableHlo.devRef_ne_of_ne hb.2.1, StableHlo.devRef_ne_of_ne hb.2.2⟩
theorem pass0_2 (b : Ref sig .tc) (hb : b ≠ main_v15) :
    StableHlo.after (hostOps0_2 (F := Ideal)) V (Proc.devRef .tc b) = V (Proc.devRef .tc b) := by
  refine StableHlo.after_of_forall_not_mem _ _ (List.forall_iff_forall_mem.mp ?_)
  simp only [hostOps0_2, List.Forall, StableHlo.reshape_writes, Finset.mem_singleton]
  exact StableHlo.devRef_ne_of_ne hb

theorem pass0_arg0 : StableHlo.after (hostOps0 (F := Ideal)) V (Proc.devRef .tc main_arg0) = V (Proc.devRef .tc main_arg0) := by host_pass hostOps0
theorem pass0_arg2 : StableHlo.after (hostOps0 (F := Ideal)) V (Proc.devRef .tc main_arg2) = V (Proc.devRef .tc main_arg2) := by host_pass hostOps0
theorem pass0_arg3 : StableHlo.after (hostOps0 (F := Ideal)) V (Proc.devRef .tc main_arg3) = V (Proc.devRef .tc main_arg3) := by host_pass hostOps0
theorem pass0_arg4 : StableHlo.after (hostOps0 (F := Ideal)) V (Proc.devRef .tc main_arg4) = V (Proc.devRef .tc main_arg4) := by host_pass hostOps0
theorem pass0_arg5 : StableHlo.after (hostOps0 (F := Ideal)) V (Proc.devRef .tc main_arg5) = V (Proc.devRef .tc main_arg5) := by host_pass hostOps0
theorem pass1_v3 : StableHlo.after (hostOps1 (F := Ideal)) V (Proc.devRef .tc main_v3) = V (Proc.devRef .tc main_v3) := by host_pass hostOps1
theorem pass1_v6 : StableHlo.after (hostOps1 (F := Ideal)) V (Proc.devRef .tc main_v6) = V (Proc.devRef .tc main_v6) := by host_pass hostOps1
theorem pass1_v15 : StableHlo.after (hostOps1 (F := Ideal)) V (Proc.devRef .tc main_v15) = V (Proc.devRef .tc main_v15) := by host_pass hostOps1
theorem pass1_arg4 : StableHlo.after (hostOps1 (F := Ideal)) V (Proc.devRef .tc main_arg4) = V (Proc.devRef .tc main_arg4) := by host_pass hostOps1
theorem pass1_arg5 : StableHlo.after (hostOps1 (F := Ideal)) V (Proc.devRef .tc main_arg5) = V (Proc.devRef .tc main_arg5) := by host_pass hostOps1

end Cert.KernelIdeal.HostRead

end
-- ==== Proof.Blocks0.lean ====
import proofs.«148502_j3307124818738_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Blocks0

open Idealize.ShloMosaic Idealize.ShloMosaic.TcCoe Idealize.SL.Sem Idealize.ShloMosaic.ValueIdx
open Cert.KernelIdeal Cert.KernelIdeal.Gen

/-- The zero offsets of a whole-buffer access, as a constant function. -/
theorem zero_off : (![0, 0] : Fin 2 → Nat) = fun _ => 0 := funext fun a => by fin_cases a <;> rfl

/-- A column `[A, 1]` broadcast to `[A, B]` reads, at row `r` and any column, the column's entry at row `r`. -/
theorem broadcastTo_col_apply {α : Type} {A B : Nat} (x : (⟨2, ![A, 1]⟩ : Shape).Idx → α)
    (h : (⟨2, ![A, 1]⟩ : Shape).Broadcasts ⟨2, ![A, B]⟩) (r : Fin A) (b : Fin B) :
    broadcastTo ⟨2, ![A, B]⟩ x h (ix2 r b) = x (ix2 r (0 : Fin 1)) := by
  refine broadcastTo_apply x h (ix2 r b) (ix2 r (0 : Fin 1)) fun a => ?_
  match a with
  | ⟨0, _⟩ =>
    show r.val = if A = 1 then 0 else r.val
    split_ifs with hA
    · have := r.isLt; omega
    · rfl
  | ⟨1, _⟩ =>
    show (0 : Nat) = if (1 : Nat) = 1 then 0 else b.val
    rfl

/-! ## The product of a row block with the weights, read at an index -/

/-- The left operand's index at output index `i` and contraction index `q`: row `i 0` … -/
theorem dot_lhs_row (i : S4000x128.Idx) (q : dot_S4000x512_S512x128_S4000x128_1_0_0_1_n_n.contr.Idx) :
    (dot_S4000x512_S512x128_S4000x128_1_0_0_1_n_n.lhsIdx i q 0).val = (i 0).val := by
  unfold DotDims.lhsIdx
  rw [dif_neg (show ¬(0 : Fin S4000x512.rank) ∈ dot_S4000x512_S512x128_S4000x128_1_0_0_1_n_n.lhsBatch by decide), dif_pos (show (0 : Fin S4000x512.rank) ∈ dot_S4000x512_S512x128_S4000x128_1_0_0_1_n_n.lhsNonContracting by decide)]
  rfl
/-- … column `q`. -/
theorem dot_lhs_col (i : S4000x128.Idx) (q : dot_S4000x512_S512x128_S4000x128_1_0_0_1_n_n.contr.Idx) :
    (dot_S4000x512_S512x128_S4000x128_1_0_0_1_n_n.lhsIdx i q 1).val = (q ⟨0, by decide⟩).val :=
  dot_S4000x512_S512x128_S4000x128_1_0_0_1_n_n.lhsIdx_val_of_single rfl i q
/-- The right operand's index: row `q` … -/
theorem dot_rhs_row (i : S4000x128.Idx) (q : dot_S4000x512_S512x128_S4000x128_1_0_0_1_n_n.contr.Idx) :
    (dot_S4000x512_S512x128_S4000x128_1_0_0_1_n_n.rhsIdx i q 0).val = (q ⟨0, by decide⟩).val :=
  dot_S4000x512_S512x128_S4000x128_1_0_0_1_n_n.rhsIdx_val_of_single rfl i q
/-- … column `i 1`. -/
theorem dot_rhs_col (i : S4000x128.Idx) (q : dot_S4000x512_S512x128_S4000x128_1_0_0_1_n_n.contr.Idx) :
    (dot_S4000x512_S512x128_S4000x128_1_0_0_1_n_n.rhsIdx i q 1).val = (i 1).val := by
  unfold DotDims.rhsIdx
  rw [dif_neg (show ¬(1 : Fin S512x128.rank) ∈ dot_S4000x512_S512x128_S4000x128_1_0_0_1_n_n.rhsBatch by decide), dif_pos (show (1 : Fin S512x128.rank) ∈ dot_S4000x512_S512x128_S4000x128_1_0_0_1_n_n.rhsNonContracting by decide)]
  rfl

/-- The matrix product accumulated into zero, at row `r` and column `a`: the sum over `k` of the left operand at
    `(r, k)` times the right at `(k, a)`. -/
theorem dot_apply (l : FVec Ideal S4000x512 .bf16) (w : FVec Ideal S512x128 .bf16) (r : Fin 4000) (a : Fin 128) :
    matmul dot_S4000x512_S512x128_S4000x128_1_0_0_1_n_n none l w (constant (F := Ideal) S4000x128 .f32 0x00000000#32) (ix2 r a)
      = ∑ k : Fin 512, l (ix2 r k) * w (ix2 k a) := by
  simp only [matmul]
  rw [Ideal.matmul_constant_zero_apply, ← Equiv.sum_comp (contrEquiv1 dot_S4000x512_S512x128_S4000x128_1_0_0_1_n_n 512 rfl rfl).symm]
  refine Finset.sum_congr rfl fun k _ => ?_
  have hk := contrEquiv1_symm_val dot_S4000x512_S512x128_S4000x128_1_0_0_1_n_n 512 rfl rfl k
  have el : dot_S4000x512_S512x128_S4000x128_1_0_0_1_n_n.lhsIdx (ix2 r a) ((contrEquiv1 dot_S4000x512_S512x128_S4000x128_1_0_0_1_n_n 512 rfl rfl).symm k) = ix2 r k := funext fun b => Fin.ext (by
    match b with
    | ⟨0, _⟩ => exact dot_lhs_row _ _
    | ⟨1, _⟩ => exact (dot_lhs_col _ _).trans hk)
  have er : dot_S4000x512_S512x128_S4000x128_1_0_0_1_n_n.rhsIdx (ix2 r a) ((contrEquiv1 dot_S4000x512_S512x128_S4000x128_1_0_0_1_n_n 512 rfl rfl).symm k) = ix2 k a := funext fun b => Fin.ext (by
    match b with
    | ⟨0, _⟩ => exact (dot_rhs_row _ _).trans hk
    | ⟨1, _⟩ => exact dot_rhs_col _ _)
  rw [el, er]

/-! ## The body's result at an index of the block -/

/-- Row `r`, column `a` of what the body stores: row `r` of the first block times the weights' column `a`, scaled by
    the column block's entry at row `r` (the format changes are the identity on extended reals). -/
theorem pay_apply (x0 : S4000x512.Idx → EReal) (x1 : S512x128.Idx → EReal) (x2 : S4000x1.Idx → EReal)
    (r : Fin 4000) (a : Fin 128) :
    k0_pay1 (F := Ideal) x0 x1 x2 (ix2 r a)
      = (∑ k : Fin 512, x0 (ix2 r k) * x1 (ix2 k a)) * x2 (ix2 r (0 : Fin 1)) := by
  unfold k0_pay1
  rw [truncf_apply, mulf_apply, dot_apply, broadcastTo_col_apply, shapeCast_self, shapeCast_self]
  rfl

/-- The same at any index of the block. -/
theorem pay_at (x0 : S4000x512.Idx → EReal) (x1 : S512x128.Idx → EReal) (x2 : S4000x1.Idx → EReal) (j : S4000x128.Idx) :
    k0_pay1 (F := Ideal) x0 x1 x2 j
      = (∑ k : Fin 512, x0 (ix2 (⟨(j 0).val, idx2_lt0 j⟩ : Fin 4000) k) * x1 (ix2 k (⟨(j 1).val, idx2_lt1 j⟩ : Fin 128)))
          * x2 (ix2 (⟨(j 0).val, idx2_lt0 j⟩ : Fin 4000) (0 : Fin 1)) := by
  obtain ⟨r, a, rfl⟩ : ∃ (r : Fin 4000) (a : Fin 128), j = ix2 r a := ⟨j 0, j 1, eq_ix2 j⟩
  exact pay_apply x0 x1 x2 r a

/-! ## The output array as one function of the three input arrays -/

/-- Row `n` of the first array times the weights, scaled by the column array's entry at row `n`. -/
def lin (x : S100000x512.Idx → EReal) (w : S512x128.Idx → EReal) (d : S100000x1.Idx → EReal) : S100000x128.Idx → EReal :=
  fun i => (∑ k : Fin 512, x (ix2 (⟨(i 0).val, idx2_lt0 i⟩ : Fin 100000) k) * w (ix2 k (⟨(i 1).val, idx2_lt1 i⟩ : Fin 128)))
    * d (ix2 (⟨(i 0).val, idx2_lt0 i⟩ : Fin 100000) (0 : Fin 1))

theorem lin_at (x : S100000x512.Idx → EReal) (w : S512x128.Idx → EReal) (d : S100000x1.Idx → EReal) (i : S100000x128.Idx) :
    lin x w d i = (∑ k : Fin 512, x (ix2 (⟨(i 0).val, idx2_lt0 i⟩ : Fin 100000) k) * w (ix2 k (⟨(i 1).val, idx2_lt1 i⟩ : Fin 128)))
      * d (ix2 (⟨(i 0).val, idx2_lt0 i⟩ : Fin 100000) (0 : Fin 1)) := rfl

/-- The printed index maps, decided over the grid: the row blocks of the first and of the column array move with the
    output's, which is block `t` at point `t`; the weights stay at block 0; no map moves along the columns. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (0 : Fin 2) = t.val
    ∧ win0_3.index t (1 : Fin 2) = 0 :=
  (by decide +kernel : ∀ t : Fin grid0.N, _)

/-- What point `t` writes back is block `t` of `lin` of the arrays as the region finds them. -/
theorem flushed_eq (V : (c : Dev nD) → (b : Ref sig .tc) → Buf (Elt Ideal) ((c : Thread nD τ).loc b)) (c : Dev nD) (t : Fin cfg0.N) :
    (dat0 (F := Ideal) V c).flushed 3 t
      = ((cfg0.win 3).blk t).view.read (Elt Ideal) (lin (V c main_arg0) (V c main_arg2) (V c main_v15)) := by
  show (cfg0.win 3).cut (grid0.coords t) ((dat0 (F := Ideal) V c).after 3 t) = _
  rw [after0_3]
  unfold out0_3
  rw [View.canon_unit_zero zero_off]
  simp only [View.ld_unit_zero (S := S4000x512) zero_off, View.ld_unit_zero (S := S512x128) zero_off, View.ld_unit_zero (S := S4000x1) zero_off]
  obtain ⟨e00, e01, e10, e11, e20, e21, e30, e31⟩ := idx_facts t
  funext j
  refine (pay_at _ _ _ _).trans ?_
  show _ = lin (V c main_arg0) (V c main_arg2) (V c main_v15) (((cfg0.win 3).blk t).view.emb j)
  rw [lin_at]
  have hj0 : (j 0).val < 4000 := (j 0).isLt
  have hj1 : (j 1).val < 128 := (j 1).isLt
  refine congrArg₂ (· * ·) (Finset.sum_congr rfl fun k _ => congrArg₂ (· * ·) ?_ ?_) ?_
  · show V c main_arg0 (((cfg0.win 0).blk t).view.emb _) = V c main_arg0 _
    refine congrArg _ (funext fun b => Fin.ext ?_)
    match b with
    | ⟨0, _⟩ => show win0_0.index t (0 : Fin 2) * 4000 + 1 * (j 0).val = win0_3.index t (0 : Fin 2) * 4000 + 1 * (j 0).val; omega
    | ⟨1, _⟩ => show win0_0.index t (1 : Fin 2) * 512 + 1 * k.val = k.val; omega
  · show V c main_arg2 (((cfg0.win 1).blk t).view.emb _) = V c main_arg2 _
    refine congrArg _ (funext fun b => Fin.ext ?_)
    match b with
    | ⟨0, _⟩ => show win0_1.index t (0 : Fin 2) * 512 + 1 * k.val = k.val; omega
    | ⟨1, _⟩ => show win0_1.index t (1 : Fin 2) * 128 + 1 * (j 1).val = win0_3.index t (1 : Fin 2) * 128 + 1 * (j 1).val; omega
  · show V c main_v15 (((cfg0.win 2).blk t).view.emb _) = V c main_v15 _
    refine congrArg _ (funext fun b => Fin.ext ?_)
    match b with
    | ⟨0, _⟩ => show win0_2.index t (0 : Fin 2) * 4000 + 1 * (j 0).val = win0_3.index t (0 : Fin 2) * 4000 + 1 * (j 0).val; omega
    | ⟨1, _⟩ => show win0_2.index t (1 : Fin 2) * 1 + 1 * 0 = 0; omega

/-- An index of the array is in point `t`'s block iff each coordinate is in the block's range on its axis. -/
theorem mem_blk (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v16).slice (win0_3.rect t)).set ↔ _
  rw [View.set_slice_whole, Rect.mem_set_unit]
  exact Iff.rfl

/-- Row `n` of the array is in the block of point `n / 4000`: the 25 blocks of 4000 rows cover the 100000 rows. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, -, -, e30, e31⟩ := idx_facts t
  refine ⟨t, flush0_3 t, ?_⟩
  rw [mem_blk]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 128 ≤ (i 1).val ∧ (i 1).val < win0_3.index t (1 : Fin 2) * 128 + 128; omega

/-- The output array after the region: `lin` of the three input arrays as the region finds them. -/
theorem arr3_fun (V : (c : Dev nD) → (b : Ref sig .tc) → Buf (Elt Ideal) ((c : Thread nD τ).loc b)) (c : Dev nD) :
    (dat0 (F := Ideal) V c).arrAt 3 cfg0.N = lin (V c main_arg0) (V c main_arg2) (V c main_v15) :=
  (dat0 (F := Ideal) V c).arrAt_eq_of_cover 3 (lin (V c main_arg0) (V c main_arg2) (V c main_v15)) (fun t _ => flushed_eq V c t) cover

theorem arr3 (V : (c : Dev nD) → (b : Ref sig .tc) → Buf (Elt Ideal) ((c : Thread nD τ).loc b)) (c : Dev nD)
    (x0 : S100000x512.Idx → EReal) (x2 : S512x128.Idx → EReal) (dv : S100000x1.Idx → EReal)
    (h0 : V c main_arg0 = x0) (h2 : V c main_arg2 = x2) (hd : V c main_v15 = dv)
    (n : Fin 100000) (a : Fin 128) :
    ((dat0 (F := Ideal) V c).arrAt 3 cfg0.N : S100000x128.Idx → EReal) (ix2 n a)
      = (∑ k : Fin 512, x0 (ix2 n k) * x2 (ix2 k a)) * dv (ix2 n (0 : Fin 1)) := by
  subst h0 h2 hd
  exact congrFun (arr3_fun V c) (ix2 n a)

end Cert.KernelIdeal.Blocks0

end
-- ==== Proof.Blocks1.lean ====
import proofs.«148502_j3307124818738_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Blocks1

open Idealize.ShloMosaic Idealize.ShloMosaic.TcCoe Idealize.SL.Sem Idealize.ShloMosaic.ValueIdx
open Cert.KernelIdeal Cert.KernelIdeal.Gen

/-- The zero offsets of a whole-buffer access, as a constant function. -/
theorem zero_off : (![0, 0] : Fin 2 → Nat) = fun _ => 0 := funext fun a => by fin_cases a <;> rfl

/-- A column `[A, 1]` broadcast to `[A, B]` reads, at row `r` and any column, the column's entry at row `r`. -/
theorem broadcastTo_col_apply {α : Type} {A B : Nat} (x : (⟨2, ![A, 1]⟩ : Shape).Idx → α)
    (h : (⟨2, ![A, 1]⟩ : Shape).Broadcasts ⟨2, ![A, B]⟩) (r : Fin A) (b : Fin B) :
    broadcastTo ⟨2, ![A, B]⟩ x h (ix2 r b) = x (ix2 r (0 : Fin 1)) := by
  refine broadcastTo_apply x h (ix2 r b) (ix2 r (0 : Fin 1)) fun a => ?_
  match a with
  | ⟨0, _⟩ =>
    show r.val = if A = 1 then 0 else r.val
    split_ifs with hA
    · have := r.isLt; omega
    · rfl
  | ⟨1, _⟩ =>
    show (0 : Nat) = if (1 : Nat) = 1 then 0 else b.val
    rfl

/-! ## The product of a row block with the weights, read at an index -/

/-- The left operand's index at output index `i` and contraction index `q`: row `i 0` … -/
theorem dot_lhs_row (i : S5000x32.Idx) (q : dot_S5000x128_S128x32_S5000x32_1_0_0_1_n_n.contr.Idx) :
    (dot_S5000x128_S128x32_S5000x32_1_0_0_1_n_n.lhsIdx i q 0).val = (i 0).val := by
  unfold DotDims.lhsIdx
  rw [dif_neg (show ¬(0 : Fin S5000x128.rank) ∈ dot_S5000x128_S128x32_S5000x32_1_0_0_1_n_n.lhsBatch by decide), dif_pos (show (0 : Fin S5000x128.rank) ∈ dot_S5000x128_S128x32_S5000x32_1_0_0_1_n_n.lhsNonContracting by decide)]
  rfl
/-- … column `q`. -/
theorem dot_lhs_col (i : S5000x32.Idx) (q : dot_S5000x128_S128x32_S5000x32_1_0_0_1_n_n.contr.Idx) :
    (dot_S5000x128_S128x32_S5000x32_1_0_0_1_n_n.lhsIdx i q 1).val = (q ⟨0, by decide⟩).val :=
  dot_S5000x128_S128x32_S5000x32_1_0_0_1_n_n.lhsIdx_val_of_single rfl i q
/-- The right operand's index: row `q` … -/
theorem dot_rhs_row (i : S5000x32.Idx) (q : dot_S5000x128_S128x32_S5000x32_1_0_0_1_n_n.contr.Idx) :
    (dot_S5000x128_S128x32_S5000x32_1_0_0_1_n_n.rhsIdx i q 0).val = (q ⟨0, by decide⟩).val :=
  dot_S5000x128_S128x32_S5000x32_1_0_0_1_n_n.rhsIdx_val_of_single rfl i q
/-- … column `i 1`. -/
theorem dot_rhs_col (i : S5000x32.Idx) (q : dot_S5000x128_S128x32_S5000x32_1_0_0_1_n_n.contr.Idx) :
    (dot_S5000x128_S128x32_S5000x32_1_0_0_1_n_n.rhsIdx i q 1).val = (i 1).val := by
  unfold DotDims.rhsIdx
  rw [dif_neg (show ¬(1 : Fin S128x32.rank) ∈ dot_S5000x128_S128x32_S5000x32_1_0_0_1_n_n.rhsBatch by decide), dif_pos (show (1 : Fin S128x32.rank) ∈ dot_S5000x128_S128x32_S5000x32_1_0_0_1_n_n.rhsNonContracting by decide)]
  rfl

/-- The matrix product accumulated into zero, at row `r` and column `a`: the sum over `k` of the left operand at
    `(r, k)` times the right at `(k, a)`. -/
theorem dot_apply (l : FVec Ideal S5000x128 .bf16) (w : FVec Ideal S128x32 .bf16) (r : Fin 5000) (a : Fin 32) :
    matmul dot_S5000x128_S128x32_S5000x32_1_0_0_1_n_n none l w (constant (F := Ideal) S5000x32 .f32 0x00000000#32) (ix2 r a)
      = ∑ k : Fin 128, l (ix2 r k) * w (ix2 k a) := by
  simp only [matmul]
  rw [Ideal.matmul_constant_zero_apply, ← Equiv.sum_comp (contrEquiv1 dot_S5000x128_S128x32_S5000x32_1_0_0_1_n_n 128 rfl rfl).symm]
  refine Finset.sum_congr rfl fun k _ => ?_
  have hk := contrEquiv1_symm_val dot_S5000x128_S128x32_S5000x32_1_0_0_1_n_n 128 rfl rfl k
  have el : dot_S5000x128_S128x32_S5000x32_1_0_0_1_n_n.lhsIdx (ix2 r a) ((contrEquiv1 dot_S5000x128_S128x32_S5000x32_1_0_0_1_n_n 128 rfl rfl).symm k) = ix2 r k := funext fun b => Fin.ext (by
    match b with
    | ⟨0, _⟩ => exact dot_lhs_row _ _
    | ⟨1, _⟩ => exact (dot_lhs_col _ _).trans hk)
  have er : dot_S5000x128_S128x32_S5000x32_1_0_0_1_n_n.rhsIdx (ix2 r a) ((contrEquiv1 dot_S5000x128_S128x32_S5000x32_1_0_0_1_n_n 128 rfl rfl).symm k) = ix2 k a := funext fun b => Fin.ext (by
    match b with
    | ⟨0, _⟩ => exact (dot_rhs_row _ _).trans hk
    | ⟨1, _⟩ => exact dot_rhs_col _ _)
  rw [el, er]

/-! ## The body's result at an index of the block -/

/-- Row `r`, column `a` of what the body stores. The hidden row `r` is, entry by entry, the larger of zero and the
    aggregate's entry scaled by the column entry at row `r` plus the bias; the result is that row times the weights'
    column `a`, scaled by the column entry again (the format changes are the identity on extended reals). -/
theorem pay_apply (d : S5000x1.Idx → EReal) (g : S5000x128.Idx → EReal) (b : S1x128.Idx → EReal) (w : S128x32.Idx → EReal)
    (d' : S5000x1.Idx → EReal) (r : Fin 5000) (a : Fin 32) :
    k1_pay1 (F := Ideal) d g b w d' (ix2 r a)
      = (∑ k : Fin 128, max (g (ix2 r k) * d (ix2 r (0 : Fin 1)) + b (ix2 (0 : Fin 1) k)) 0 * w (ix2 k a))
          * d' (ix2 r (0 : Fin 1)) := by
  unfold k1_pay1
  simp only [shapeCast_self]
  rw [truncf_apply, mulf_apply, dot_apply, broadcastTo_col_apply]
  refine congrArg (· * d' (ix2 r (0 : Fin 1))) (Finset.sum_congr rfl fun k _ => ?_)
  rw [truncf_apply, truncf_apply, maximumf_apply, addf_apply, mulf_apply, broadcastTo_col_apply, broadcastTo_1b_ab_apply,
    broadcast_apply]
  show max _ (Ideal.ofBits .f32 0x00000000#32) * _ = _
  rw [Ideal.ofBits_zero_f32]

/-- The same at any index of the block. -/
theorem pay_at (d : S5000x1.Idx → EReal) (g : S5000x128.Idx → EReal) (b : S1x128.Idx → EReal) (w : S128x32.Idx → EReal)
    (d' : S5000x1.Idx → EReal) (j : S5000x32.Idx) :
    k1_pay1 (F := Ideal) d g b w d' j
      = (∑ k : Fin 128, max (g (ix2 (⟨(j 0).val, idx2_lt0 j⟩ : Fin 5000) k) * d (ix2 (⟨(j 0).val, idx2_lt0 j⟩ : Fin 5000) (0 : Fin 1))
              + b (ix2 (0 : Fin 1) k)) 0 * w (ix2 k (⟨(j 1).val, idx2_lt1 j⟩ : Fin 32)))
          * d' (ix2 (⟨(j 0).val, idx2_lt0 j⟩ : Fin 5000) (0 : Fin 1)) := by
  obtain ⟨r, a, rfl⟩ : ∃ (r : Fin 5000) (a : Fin 32), j = ix2 r a := ⟨j 0, j 1, eq_ix2 j⟩
  exact pay_apply d g b w d' r a

/-! ## The output array as one function of the four input arrays -/

/-- Row `n` of the hidden layer — the larger of zero and the aggregate's row `n` scaled by the column array's entry
    at row `n` plus the bias — times the weights, scaled by that entry again. -/
def layer (g : S100000x128.Idx → EReal) (d : S100000x1.Idx → EReal) (b : S1x128.Idx → EReal) (w : S128x32.Idx → EReal) :
    S100000x32.Idx → EReal :=
  fun i => (∑ k : Fin 128, max (g (ix2 (⟨(i 0).val, idx2_lt0 i⟩ : Fin 100000) k) * d (ix2 (⟨(i 0).val, idx2_lt0 i⟩ : Fin 100000) (0 : Fin 1))
        + b (ix2 (0 : Fin 1) k)) 0 * w (ix2 k (⟨(i 1).val, idx2_lt1 i⟩ : Fin 32)))
    * d (ix2 (⟨(i 0).val, idx2_lt0 i⟩ : Fin 100000) (0 : Fin 1))

theorem layer_at (g : S100000x128.Idx → EReal) (d : S100000x1.Idx → EReal) (b : S1x128.Idx → EReal) (w : S128x32.Idx → EReal)
    (i : S100000x32.Idx) :
    layer g d b w i
      = (∑ k : Fin 128, max (g (ix2 (⟨(i 0).val, idx2_lt0 i⟩ : Fin 100000) k) * d (ix2 (⟨(i 0).val, idx2_lt0 i⟩ : Fin 100000) (0 : Fin 1))
            + b (ix2 (0 : Fin 1) k)) 0 * w (ix2 k (⟨(i 1).val, idx2_lt1 i⟩ : Fin 32)))
        * d (ix2 (⟨(i 0).val, idx2_lt0 i⟩ : Fin 100000) (0 : Fin 1)) := rfl

/-- The printed index maps, decided over the grid: the row blocks of the aggregate and of the column array move with
    the output's, which is block `t` at point `t`; the bias and the weights stay at block 0; no map moves along the
    columns. -/
theorem idx_facts : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = t.val
    ∧ win1_4.index t (1 : Fin 2) = 0 :=
  (by decide +kernel : ∀ t : Fin grid1.N, _)

/-- What point `t` writes back is block `t` of `layer` of the arrays as the region finds them. -/
theorem flushed_eq (V : (c : Dev nD) → (b : Ref sig .tc) → Buf (Elt Ideal) ((c : Thread nD τ).loc b)) (c : Dev nD) (t : Fin cfg1.N) :
    (dat1 (F := Ideal) V c).flushed 4 t
      = ((cfg1.win 4).blk t).view.read (Elt Ideal) (layer (V c main_v27) (V c main_v15) (V c main_v28) (V c main_arg4)) := by
  show (cfg1.win 4).cut (grid1.coords t) ((dat1 (F := Ideal) V c).after 4 t) = _
  rw [after1_4]
  unfold out1_4
  rw [View.canon_unit_zero zero_off]
  simp only [View.ld_unit_zero (S := S5000x128) zero_off, View.ld_unit_zero (S := S5000x1) zero_off,
    View.ld_unit_zero (S := S1x128) zero_off, View.ld_unit_zero (S := S128x32) zero_off]
  obtain ⟨e00, e01, e10, e11, e20, e21, e30, e31, e40, e41⟩ := idx_facts t
  funext j
  refine (pay_at _ _ _ _ _ _).trans ?_
  show _ = layer (V c main_v27) (V c main_v15) (V c main_v28) (V c main_arg4) (((cfg1.win 4).blk t).view.emb j)
  rw [layer_at]
  have hj0 : (j 0).val < 5000 := (j 0).isLt
  have hj1 : (j 1).val < 32 := (j 1).isLt
  have hd : V c main_v15 (((cfg1.win 1).blk t).view.emb (ix2 (⟨(j 0).val, hj0⟩ : Fin 5000) (0 : Fin 1)))
      = V c main_v15 (ix2 (⟨((((cfg1.win 4).blk t).view.emb j) 0).val, idx2_lt0 _⟩ : Fin 100000) (0 : Fin 1)) := by
    refine congrArg _ (funext fun b => Fin.ext ?_)
    match b with
    | ⟨0, _⟩ => show win1_1.index t (0 : Fin 2) * 5000 + 1 * (j 0).val = win1_4.index t (0 : Fin 2) * 5000 + 1 * (j 0).val; omega
    | ⟨1, _⟩ => show win1_1.index t (1 : Fin 2) * 1 + 1 * 0 = 0; omega
  refine congrArg₂ (· * ·) (Finset.sum_congr rfl fun k _ => congrArg₂ (· * ·)
    (congrArg (fun x : EReal => max x 0) (congrArg₂ (· + ·) (congrArg₂ (· * ·) ?_ hd) ?_)) ?_) hd
  · show V c main_v27 (((cfg1.win 0).blk t).view.emb _) = V c main_v27 _
    refine congrArg _ (funext fun b => Fin.ext ?_)
    match b with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * k.val = k.val; omega
  · show V c main_v28 (((cfg1.win 2).blk t).view.emb _) = V c main_v28 _
    refine congrArg _ (funext fun b => Fin.ext ?_)
    match b with
    | ⟨0, _⟩ => show win1_2.index t (0 : Fin 2) * 1 + 1 * 0 = 0; omega
    | ⟨1, _⟩ => show win1_2.index t (1 : Fin 2) * 128 + 1 * k.val = k.val; omega
  · show V c main_arg4 (((cfg1.win 3).blk t).view.emb _) = V c main_arg4 _
    refine congrArg _ (funext fun b => Fin.ext ?_)
    match b with
    | ⟨0, _⟩ => show win1_3.index t (0 : Fin 2) * 128 + 1 * k.val = k.val; omega
    | ⟨1, _⟩ => show win1_3.index t (1 : Fin 2) * 32 + 1 * (j 1).val = win1_4.index t (1 : Fin 2) * 32 + 1 * (j 1).val; omega

/-- An index of the array is in point `t`'s block iff each coordinate is in the block's range on its axis. -/
theorem mem_blk (t : Fin cfg1.N) (i : S100000x32.Idx) :
    i ∈ ((cfg1.win 4).blk t).view.set ↔ ∀ a : Fin 2, win1_4.index t a * S5000x32.size a ≤ (i a).val ∧ (i a).val < win1_4.index t a * S5000x32.size a + S5000x32.size a := by
  show i ∈ ((View.whole main_v29).slice (win1_4.rect t)).set ↔ _
  rw [View.set_slice_whole, Rect.mem_set_unit]
  exact Iff.rfl

/-- Row `n` of the array is in the block of point `n / 5000`: the 20 blocks of 5000 rows cover the 100000 rows. -/
theorem cover (i : S100000x32.Idx) :
    ∃ t : Fin cfg1.N, (cfg1.win 4).flush t = true ∧ i ∈ ((cfg1.win 4).blk t).view.set := by
  have hi0 : (i 0).val < 100000 := (i 0).isLt
  have hi1 : (i 1).val < 32 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, e40, e41⟩ := idx_facts t
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 32 ≤ (i 1).val ∧ (i 1).val < win1_4.index t (1 : Fin 2) * 32 + 32; omega

/-- The output array after the region: `layer` of the four input arrays as the region finds them. -/
theorem arr4_fun (V : (c : Dev nD) → (b : Ref sig .tc) → Buf (Elt Ideal) ((c : Thread nD τ).loc b)) (c : Dev nD) :
    (dat1 (F := Ideal) V c).arrAt 4 cfg1.N = layer (V c main_v27) (V c main_v15) (V c main_v28) (V c main_arg4) :=
  (dat1 (F := Ideal) V c).arrAt_eq_of_cover 4 (layer (V c main_v27) (V c main_v15) (V c main_v28) (V c main_arg4))
    (fun t _ => flushed_eq V c t) cover

theorem arr4 (V : (c : Dev nD) → (b : Ref sig .tc) → Buf (Elt Ideal) ((c : Thread nD τ).loc b)) (c : Dev nD)
    (g : S100000x128.Idx → EReal) (dv : S100000x1.Idx → EReal) (b : S1x128.Idx → EReal) (w : S128x32.Idx → EReal)
    (hg : V c main_v27 = g) (hd : V c main_v15 = dv) (hb : V c main_v28 = b) (hw : V c main_arg4 = w)
    (n : Fin 100000) (a : Fin 32) :
    ((dat1 (F := Ideal) V c).arrAt 4 cfg1.N : S100000x32.Idx → EReal) (ix2 n a)
      = (∑ k : Fin 128, max (g (ix2 n k) * dv (ix2 n (0 : Fin 1)) + b (ix2 (0 : Fin 1) k)) 0 * w (ix2 k a))
          * dv (ix2 n (0 : Fin 1)) := by
  subst hg hd hb hw
  exact congrFun (arr4_fun V c) (ix2 n a)

end Cert.KernelIdeal.Blocks1

end
-- ==== Proof.LibRowSums.lean ====
/-
  Row scatters and gathers over the extended reals, and scaling a scatter-add by a nonnegative real.

  A scatter-add of rows adds, into row number idx(e, 0) of an N x C operand, row e of an R x C update array, for every e
  whose row number (read as a signed integer, not clamped) lies in [0, N); the other updates are dropped. A gather of
  rows (or of single entries of a vector) reads the row number idx(e, 0) clamped into [0, N - 1].

  Over the extended reals a product with a nonnegative REAL factor distributes over every finite sum, whatever the
  summands (infinities of both signs included); with associativity of the product this moves a factor that depends only
  on the target row out of a scatter-add.
-/
import Idealize.ShloMosaic.Lib.ValueIdx
import Idealize.ShloMosaic.PureOps.Ideal

noncomputable section

namespace Cert.LibRowSums

open Idealize.ShloMosaic Idealize.ShloMosaic.ValueIdx

/-- A product with a nonnegative real distributes over a finite sum of extended reals. -/
theorem sum_mul_of_nonneg {ι : Type} (s : Finset ι) (f : ι → EReal) {c : EReal} (h0 : 0 ≤ c) (ht : c ≠ ⊤) :
    (∑ j ∈ s, f j) * c = ∑ j ∈ s, f j * c := by
  classical
  refine Finset.induction_on s ?_ ?_
  · simp
  · intro a s ha ih
    rw [Finset.sum_insert ha, Finset.sum_insert ha, EReal.right_distrib_of_nonneg_of_ne_top h0 ht, ih]

/-- `where(x > 0, rsqrt x, 0)` is a nonnegative real for EVERY extended real x: the reciprocal square root of a
    positive real is a positive real, that of +inf is 0, and everywhere else the guard picks 0. -/
theorem where_rsqrt_range (x : EReal) :
    0 ≤ Scalar.select (Ideal.cmp .ogt x 0) (Ideal.rsqrt x) (0 : EReal)
      ∧ Scalar.select (Ideal.cmp .ogt x 0) (Ideal.rsqrt x) (0 : EReal) ≠ ⊤ := by
  unfold Scalar.select Ideal.cmp
  by_cases h : (0 : EReal) < x
  · have h1 : BitVec.ofBool (decide ((0 : EReal) < x)) = 1 := by simp [h]
    simp only [h1, if_true]
    induction x using EReal.rec with
    | bot => exact absurd h (by simp)
    | top => simp
    | coe r =>
      have hr : 0 < r := by exact_mod_cast h
      rw [Ideal.rsqrt_coe, if_neg (not_lt.mpr hr.le), if_neg hr.ne']
      refine ⟨?_, EReal.coe_ne_top _⟩
      exact_mod_cast (inv_nonneg.mpr (Real.sqrt_nonneg r))
  · have h1 : BitVec.ofBool (decide ((0 : EReal) < x)) ≠ 1 := by simp [h]
    simp only [if_neg h1]
    exact ⟨le_refl _, EReal.zero_ne_top⟩

/-- The negative-index wrap `where(v < 0, v + k, v)` leaves a word that reads nonnegative as it is. -/
theorem wrap_of_nonneg (v k : BitVec 32) (h : 0 ≤ v.toInt) :
    Scalar.select (IntOp.cmpi .slt v 0#32) (IntOp.addi v k) v = v := by
  unfold Scalar.select IntOp.cmpi
  have : v.slt 0#32 = false := by
    rw [BitVec.slt]
    simp only [BitVec.toInt_zero]
    exact decide_eq_false (not_lt.mpr h)
  simp [this]

/-! ## A gather of single entries of a vector -/

/-- The dimension numbers of a gather of single entries: operand N, start indices R x 1, result R. -/
abbrev entryDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- A gather of single entries read at e: the operand at idx(e, 0) clamped into [0, N - 1]. -/
theorem gather_entry_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (entryDims N R wf) x idx (ix1 e)
      = x (ix1 ⟨min (idx (ix2 e (0 : Fin 1))).toInt.toNat (N - 1), by omega⟩) := by
  unfold Host.gather
  congr 1
  funext b
  refine Fin.ext ?_
  match b with
  | ⟨0, _⟩ =>
    show (entryDims N R wf).start (ix1 e) idx 0 + (entryDims N R wf).batchCoord (ix1 e) 0
      + (entryDims N R wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (entryDims N R wf).startIndexMap from List.mem_singleton.mpr rfl)]
    have hsi : (entryDims N R wf).siIdx (ix1 e) ⟨List.idxOf (0 : Fin 1) (entryDims N R wf).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl

/-! ## A scatter of rows -/

/-- The dimension numbers of a scatter of whole rows: operand N x C, scatter indices R x 1, updates R x C. -/
abbrev rowsScatter (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Where update (e, a) of a scatter of rows lands: if it lands on element i at all, its row number idx(e, 0) reads as an
    integer in [0, N) and is i's row. -/
theorem rowsScatter_lands {N R C w : Nat}
    (wf : ScatterDims.WF ⟨2, ![N, C]⟩ ⟨2, ![R, 1]⟩ ⟨2, ![R, C]⟩ [1] [0] [0] 1)
    (idx : IVec ⟨2, ![R, 1]⟩ w) (e : Fin R) (a : Fin C) (i : (⟨2, ![N, C]⟩ : Shape).Idx)
    (h : (rowsScatter N R C wf).resultIdx? (ix2 e a) idx = some i) :
    0 ≤ (idx (ix2 e (0 : Fin 1))).toInt ∧ (idx (ix2 e (0 : Fin 1))).toInt < (N : Int)
      ∧ ((i 0).val : Int) = (idx (ix2 e (0 : Fin 1))).toInt := by
  unfold ScatterDims.resultIdx? at h
  split at h
  next hin =>
    have hi := Option.some.inj h
    have h0 := hin 0
    have hst : (rowsScatter N R C wf).start (ix2 e a) idx 0 = (idx (ix2 e (0 : Fin 1))).toInt := by
      unfold ScatterDims.start
      rw [dif_pos (show (0 : Fin 2) ∈ (rowsScatter N R C wf).scatterDimsToOperandDims from List.mem_singleton.mpr rfl)]
      have hsi : (rowsScatter N R C wf).siIdx (ix2 e a) ⟨List.idxOf (0 : Fin 2) (rowsScatter N R C wf).scatterDimsToOperandDims,
          List.idxOf_lt_length_iff.2 (List.mem_singleton.mpr rfl)⟩ = ix2 e (0 : Fin 1) := by
        funext c; refine Fin.ext ?_
        match c with
        | ⟨0, _⟩ => rfl
        | ⟨1, _⟩ => rfl
      rw [hsi]
    have hw : (rowsScatter N R C wf).window (ix2 e a) 0 = 0 := by
      unfold ScatterDims.window
      rw [dif_neg (show ¬ (0 : Fin 2) ∈ (rowsScatter N R C wf).sKept by
        simp [ScatterDims.sKept, Shape.kept, List.mem_filter])]
    rw [hst, hw] at h0
    have hsz : ((⟨2, ![N, C]⟩ : Shape).size 0 : Int) = (N : Int) := rfl
    refine ⟨by simpa using h0.1, by simpa [hsz] using h0.2, ?_⟩
    have hv : (i 0).val = ((rowsScatter N R C wf).start (ix2 e a) idx 0 + ((rowsScatter N R C wf).window (ix2 e a) 0 : Nat)).toNat := by
      rw [← hi]
    rw [hv, hst, hw]
    have := h0.1
    simp only [Nat.cast_zero, add_zero] at this ⊢
    exact Int.toNat_of_nonneg this
  next => exact absurd h (by simp)

/-- SCALING A SCATTER-ADD OF ROWS. Let c be a nonnegative real and let both operands vanish at the target element. If
    every update that lands on element i satisfies u'(j) = u(j) · c, then the scatter-add of u' at i is the scatter-add of
    u at i, times c. -/
theorem scatterAdd_scale {s si su : Shape} (d : ScatterDims s si su) {w : Nat} (z z' : s.Idx → EReal) (idx : IVec si w)
    (u u' : su.Idx → EReal) (i : s.Idx) {c : EReal} (h0 : 0 ≤ c) (ht : c ≠ ⊤) (hz : z i = 0) (hz' : z' i = 0)
    (h : ∀ j, d.resultIdx? j idx = some i → u' j = u j * c) :
    Ideal.hostScatterAdd d z' idx u' i = Ideal.hostScatterAdd d z idx u i * c := by
  unfold Ideal.hostScatterAdd
  rw [hz, hz', zero_add, zero_add, sum_mul_of_nonneg _ _ h0 ht]
  refine Finset.sum_congr rfl fun j hj => ?_
  exact h j (Finset.mem_filter.mp hj).2

/-! ## One aggregation layer, scaled on the target row -/

/-- The row a gather reads for the start word v after the negative-index wrap `where(v < 0, v + k, v)`: the wrapped word
    read as a signed integer and clamped into [0, N - 1]. -/
def rowOf (N : Nat) (hN : 0 < N) (v k : BitVec 32) : Fin N :=
  ⟨min (Scalar.select (IntOp.cmpi .slt v 0#32) (IntOp.addi v k) v).toInt.toNat (N - 1), by omega⟩

/-- For a word that reads as an integer of [0, N), the gather's row is that integer: nothing is wrapped or clamped. -/
theorem rowOf_val_of_inRange {N : Nat} (hN : 0 < N) (v k : BitVec 32) (h0 : 0 ≤ v.toInt) (h1 : v.toInt < (N : Int)) :
    ((rowOf N hN v k).val : Int) = v.toInt := by
  unfold rowOf
  show ((min (Scalar.select (IntOp.cmpi .slt v 0#32) (IntOp.addi v k) v).toInt.toNat (N - 1) : Nat) : Int) = v.toInt
  rw [wrap_of_nonneg v k h0]
  have hle : v.toInt.toNat ≤ N - 1 := by omega
  rw [Nat.min_eq_left hle]
  exact Int.toNat_of_nonneg h0

/-- A gather's clamped row for a start word that IS the wrapped word of v is `rowOf` of v. -/
theorem rowOf_eq {N : Nat} (hN : 0 < N) (w v k : BitVec 32) (hlt : min w.toInt.toNat (N - 1) < N)
    (h : w = Scalar.select (IntOp.cmpi .slt v 0#32) (IntOp.addi v k) v) :
    (⟨min w.toInt.toNat (N - 1), hlt⟩ : Fin N) = rowOf N hN v k := by
  subst h; rfl

/-- ONE LAYER. Rows of H are sent along edges: edge e carries row sr(e) of H, and lands on the row its target word
    names. Scaling every message by dinv(source) · dinv(target as a gather reads the target word) before the scatter-add
    is scaling it by dinv(source) only and multiplying the aggregated row n by dinv(n) afterwards: a message that lands
    on row n has a target word reading n, which the gather neither wraps nor clamps, and dinv(n) is a nonnegative real. -/
theorem layer_scale {N R C : Nat} (hN : 0 < N)
    (wf : ScatterDims.WF ⟨2, ![N, C]⟩ ⟨2, ![R, 1]⟩ ⟨2, ![R, C]⟩ [1] [0] [0] 1)
    (z z' : (⟨2, ![N, C]⟩ : Shape).Idx → EReal) (hz : ∀ i, z i = 0) (hz' : ∀ i, z' i = 0)
    (idxD : IVec ⟨2, ![R, 1]⟩ 32) (k : BitVec 32)
    (dinv : Fin N → EReal) (h0 : ∀ n, 0 ≤ dinv n) (ht : ∀ n, dinv n ≠ ⊤)
    (H : (⟨2, ![N, C]⟩ : Shape).Idx → EReal) (sr : Fin R → Fin N)
    (u u' : (⟨2, ![R, C]⟩ : Shape).Idx → EReal)
    (hu : ∀ e a, u (ix2 e a) = H (ix2 (sr e) a) * dinv (sr e))
    (hu' : ∀ e a, u' (ix2 e a)
      = H (ix2 (sr e) a) * (dinv (sr e) * dinv (rowOf N hN (idxD (ix2 e (0 : Fin 1))) k)))
    (n : Fin N) (a : Fin C) :
    Ideal.hostScatterAdd (rowsScatter N R C wf) z' idxD u' (ix2 n a)
      = Ideal.hostScatterAdd (rowsScatter N R C wf) z idxD u (ix2 n a) * dinv n := by
  refine scatterAdd_scale _ z z' idxD u u' (ix2 n a) (h0 n) (ht n) (hz _) (hz' _) fun j hj => ?_
  obtain ⟨e, a', rfl⟩ : ∃ (e : Fin R) (a' : Fin C), j = ix2 e a' := ⟨j 0, j 1, eq_ix2 j⟩
  obtain ⟨hlo, hhi, hrow⟩ := rowsScatter_lands wf idxD e a' (ix2 n a) hj
  have hr : rowOf N hN (idxD (ix2 e (0 : Fin 1))) k = n := by
    apply Fin.ext
    have h1 := rowOf_val_of_inRange hN (idxD (ix2 e (0 : Fin 1))) k hlo hhi
    have h2 : (((ix2 n a : (⟨2, ![N, C]⟩ : Shape).Idx) 0).val : Int) = (n.val : Int) := rfl
    omega
  rw [hu', hu, hr, mul_assoc]

end Cert.LibRowSums

end
-- ==== Proof.LibGatherRead.lean ====
/-
  Two gathers read at an index.

  A gather reads, for every result index, the operand at a start index taken from an integer array, each component read
  as a signed integer and clamped so that the slice fits inside the operand.

  Rows: the operand is an N x C matrix, the start indices an R x 1 array of row numbers; result row e is the operand's
  row number idx(e, 0), clamped into [0, N - 1], so entry (e, a) of the result is the operand at (that row, a).

  Pairs: the operand is an N x M matrix, the start indices an R x 2 array of (row, column) pairs; result entry e is
  the operand at (idx(e, 0) clamped into [0, N - 1], idx(e, 1) clamped into [0, M - 1]).
-/
import Idealize.ShloMosaic.Lib.ValueIdx

noncomputable section

namespace Cert.LibGatherRead

open Idealize.ShloMosaic Idealize.ShloMosaic.ValueIdx

variable {α : Type}

/-- The dimension numbers of a gather of whole rows: operand N x C, start indices R x 1, result R x C. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- A gather of whole rows read at (e, a): the operand at (row number idx(e, 0) clamped into [0, N - 1], a). -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (a : Fin C) :
    Host.gather (rowsDims N R C wf) x idx (ix2 e a)
      = x (ix2 ⟨min (idx (ix2 e (0 : Fin 1))).toInt.toNat (N - 1), by omega⟩ a) := by
  unfold Host.gather
  congr 1
  funext b
  refine Fin.ext ?_
  match b with
  | ⟨0, _⟩ =>
    show (rowsDims N R C wf).start (ix2 e a) idx 0 + (rowsDims N R C wf).batchCoord (ix2 e a) 0
      + (rowsDims N R C wf).offCoord (ix2 e a) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx (ix2 e a) ⟨List.idxOf (0 : Fin 2) (rowsDims N R C wf).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  | ⟨1, _⟩ =>
    show (rowsDims N R C wf).start (ix2 e a) idx 1 + (rowsDims N R C wf).batchCoord (ix2 e a) 1
      + (rowsDims N R C wf).offCoord (ix2 e a) 1 = _
    rw [GatherDims.batchCoord_eq_zero _ _ _ List.not_mem_nil]
    have hs : (rowsDims N R C wf).start (ix2 e a) idx 1 = 0 := by
      unfold GatherDims.start
      rw [dif_neg (show ¬ (1 : Fin 2) ∈ ([0] : List (Fin 2)) by decide)]
    have hk : (1 : Fin 2) ∈ (rowsDims N R C wf).sKept :=
      (GatherDims.mem_sKept _ _).mpr ⟨(show ¬ (1 : Fin 2) ∈ ([0] : List (Fin 2)) by decide), List.not_mem_nil⟩
    rw [hs]
    unfold GatherDims.offCoord
    rw [dif_pos hk]
    simp only [Nat.zero_add, Nat.add_zero]
    rfl

/-- The dimension numbers of a gather of single entries at (row, column) pairs: operand N x M, start indices R x 2,
    result R. -/
abbrev pairDims (N M R : Nat)
    (wf : GatherDims.WF ⟨2, ![N, M]⟩ ⟨2, ![R, 2]⟩ ⟨1, ![R]⟩ [] [0, 1] [] [0, 1] [] 1 ![1, 1]) :
    GatherDims ⟨2, ![N, M]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- A gather of single entries read at e: the operand at (idx(e, 0) clamped into [0, N - 1], idx(e, 1) clamped into
    [0, M - 1]). -/
theorem gather_pair_apply {N M R w : Nat} (hN : 0 < N) (hM : 0 < M)
    (wf : GatherDims.WF ⟨2, ![N, M]⟩ ⟨2, ![R, 2]⟩ ⟨1, ![R]⟩ [] [0, 1] [] [0, 1] [] 1 ![1, 1])
    (x : (⟨2, ![N, M]⟩ : Shape).Idx → α) (idx : IVec ⟨2, ![R, 2]⟩ w) (e : Fin R) :
    Host.gather (pairDims N M R wf) x idx (ix1 e)
      = x (ix2 ⟨min (idx (ix2 e (0 : Fin 2))).toInt.toNat (N - 1), by omega⟩
            ⟨min (idx (ix2 e (1 : Fin 2))).toInt.toNat (M - 1), by omega⟩) := by
  unfold Host.gather
  congr 1
  funext b
  refine Fin.ext ?_
  match b with
  | ⟨0, _⟩ =>
    show (pairDims N M R wf).start (ix1 e) idx 0 + (pairDims N M R wf).batchCoord (ix1 e) 0
      + (pairDims N M R wf).offCoord (ix1 e) 0 = _
    rw [GatherDims.batchCoord_eq_zero _ _ _ List.not_mem_nil,
      GatherDims.offCoord_eq_zero _ _ _ (fun h => ((GatherDims.mem_sKept _ _).mp h).1 (show (0 : Fin 2) ∈ ([0, 1] : List (Fin 2)) by decide))]
    simp only [Nat.add_zero]
    unfold GatherDims.start
    rw [dif_pos (show (0 : Fin 2) ∈ ([0, 1] : List (Fin 2)) by decide)]
    have hsi : (pairDims N M R wf).siIdx (ix1 e) ⟨List.idxOf (0 : Fin 2) (pairDims N M R wf).startIndexMap,
        List.idxOf_lt_length_iff.2 (show (0 : Fin 2) ∈ ([0, 1] : List (Fin 2)) by decide)⟩ = ix2 e (0 : Fin 2) := by
      funext c; refine Fin.ext ?_
      match c with
      | ⟨0, _⟩ => rfl
      | ⟨1, _⟩ => rfl
    rw [hsi]
    rfl
  | ⟨1, _⟩ =>
    show (pairDims N M R wf).start (ix1 e) idx 1 + (pairDims N M R wf).batchCoord (ix1 e) 1
      + (pairDims N M R wf).offCoord (ix1 e) 1 = _
    rw [GatherDims.batchCoord_eq_zero _ _ _ List.not_mem_nil,
      GatherDims.offCoord_eq_zero _ _ _ (fun h => ((GatherDims.mem_sKept _ _).mp h).1 (show (1 : Fin 2) ∈ ([0, 1] : List (Fin 2)) by decide))]
    simp only [Nat.add_zero]
    unfold GatherDims.start
    rw [dif_pos (show (1 : Fin 2) ∈ ([0, 1] : List (Fin 2)) by decide)]
    have hsi : (pairDims N M R wf).siIdx (ix1 e) ⟨List.idxOf (1 : Fin 2) (pairDims N M R wf).startIndexMap,
        List.idxOf_lt_length_iff.2 (show (1 : Fin 2) ∈ ([0, 1] : List (Fin 2)) by decide)⟩ = ix2 e (1 : Fin 2) := by
      funext c; refine Fin.ext ?_
      match c with
      | ⟨0, _⟩ => rfl
      | ⟨1, _⟩ => rfl
    rw [hsi]
    rfl

end Cert.LibGatherRead

end
-- ==== Proof.LibBroadcastRead.lean ====
/-
  The broadcasts of a graph-convolution's host code read at an index.

  A vector laid as a column [R] -> [R, 1]; a column repeated along rows [R, 1] -> [R, C]; a row repeated down the
  columns [1, C] -> [N, C]; a vector laid as a row [C] -> [1, C]; a scalar repeated everywhere. Each entry of the result
  is one entry of the operand: the coordinate along a unit axis is dropped, the others are kept.
-/
import Idealize.ShloMosaic.Lib.Pipeline.Value
import Idealize.ShloMosaic.Lib.ValueIdx

namespace Cert.LibBroadcastRead

open Idealize.ShloMosaic Idealize.ShloMosaic.ValueIdx

variable {α : Type}

/-- A length-R vector as an [R, 1] column: entry (e, 0) is the vector's e. -/
theorem col_apply {R : Nat} (hR : R ≠ 1)
    (h : (⟨1, ![R]⟩ : Shape).BroadcastsInDim ⟨2, ![R, 1]⟩ (![0] : Fin 1 → Fin 2))
    (v : (⟨1, ![R]⟩ : Shape).Idx → α) (e : Fin R) (z : Fin 1) :
    broadcastInDim ⟨2, ![R, 1]⟩ (![0] : Fin 1 → Fin 2) h v (ix2 e z) = v (ix1 e) :=
  broadcastInDim_apply _ h v (ix2 e z) (ix1 e) (fun a => match a with
    | ⟨0, _⟩ => by show e.val = if R = 1 then 0 else e.val; rw [if_neg hR])

/-- An [R, 1] column repeated to [R, C]: entry (e, a) is the column's (e, 0). -/
theorem colmat_apply {R C : Nat} (hR : R ≠ 1)
    (h : (⟨2, ![R, 1]⟩ : Shape).BroadcastsInDim ⟨2, ![R, C]⟩ (![0, 1] : Fin 2 → Fin 2))
    (y : (⟨2, ![R, 1]⟩ : Shape).Idx → α) (e : Fin R) (a : Fin C) :
    broadcastInDim ⟨2, ![R, C]⟩ (![0, 1] : Fin 2 → Fin 2) h y (ix2 e a) = y (ix2 e (0 : Fin 1)) :=
  broadcastInDim_apply _ h y (ix2 e a) (ix2 e (0 : Fin 1)) (fun b => match b with
    | ⟨0, _⟩ => by show e.val = if R = 1 then 0 else e.val; rw [if_neg hR]
    | ⟨1, _⟩ => by show 0 = if (1 : Nat) = 1 then 0 else a.val; rw [if_pos rfl])

/-- A [1, C] row repeated to [N, C]: entry (n, a) is the row's (0, a). -/
theorem rowmat_apply {N C : Nat} (hC : C ≠ 1)
    (h : (⟨2, ![1, C]⟩ : Shape).BroadcastsInDim ⟨2, ![N, C]⟩ (![0, 1] : Fin 2 → Fin 2))
    (y : (⟨2, ![1, C]⟩ : Shape).Idx → α) (n : Fin N) (a : Fin C) :
    broadcastInDim ⟨2, ![N, C]⟩ (![0, 1] : Fin 2 → Fin 2) h y (ix2 n a) = y (ix2 (0 : Fin 1) a) :=
  broadcastInDim_apply _ h y (ix2 n a) (ix2 (0 : Fin 1) a) (fun b => match b with
    | ⟨0, _⟩ => by show 0 = if (1 : Nat) = 1 then 0 else n.val; rw [if_pos rfl]
    | ⟨1, _⟩ => by show a.val = if C = 1 then 0 else a.val; rw [if_neg hC])

/-- A length-C vector as a [1, C] row: entry (0, a) is the vector's a. -/
theorem vecrow_apply {C : Nat} (hC : C ≠ 1)
    (h : (⟨1, ![C]⟩ : Shape).BroadcastsInDim ⟨2, ![1, C]⟩ (![1] : Fin 1 → Fin 2))
    (b : (⟨1, ![C]⟩ : Shape).Idx → α) (z : Fin 1) (a : Fin C) :
    broadcastInDim ⟨2, ![1, C]⟩ (![1] : Fin 1 → Fin 2) h b (ix2 z a) = b (ix1 a) :=
  broadcastInDim_apply _ h b (ix2 z a) (ix1 a) (fun c => match c with
    | ⟨0, _⟩ => by show a.val = if C = 1 then 0 else a.val; rw [if_neg hC])

/-- A scalar repeated over any shape: every entry is the scalar. -/
theorem splat_apply {t : Shape} (h : (⟨0, ![]⟩ : Shape).BroadcastsInDim t (![] : Fin 0 → Fin t.rank))
    (x : (⟨0, ![]⟩ : Shape).Idx → α) (j : t.Idx) :
    broadcastInDim t (![] : Fin 0 → Fin t.rank) h x j = x ix0 :=
  broadcastInDim_apply _ h x j ix0 (fun a => a.elim0)

/-- The column of wrapped start words: the negative-index wrap `where(s < 0, s + k, s)` of a vector of words, laid as an
    [R, 1] column, holds at (e, 0) the wrap of the vector's e-th word. -/
theorem wrapcol_apply {R : Nat} (hR : R ≠ 1)
    (hb : (⟨1, ![R]⟩ : Shape).BroadcastsInDim ⟨2, ![R, 1]⟩ (![0] : Fin 1 → Fin 2))
    (h0 h1 : (⟨0, ![]⟩ : Shape).BroadcastsInDim ⟨1, ![R]⟩ (![] : Fin 0 → Fin 1))
    (s : IVec ⟨1, ![R]⟩ 32) (k : BitVec 32) (e : Fin R) (z : Fin 1) :
    broadcastInDim ⟨2, ![R, 1]⟩ (![0] : Fin 1 → Fin 2) hb
        (select (cmpi .slt s (broadcastInDim ⟨1, ![R]⟩ (![] : Fin 0 → Fin 1) h0 (constantI ⟨0, ![]⟩ 32 0#32)))
          (addi s (broadcastInDim ⟨1, ![R]⟩ (![] : Fin 0 → Fin 1) h1 (constantI ⟨0, ![]⟩ 32 k))) s) (ix2 e z)
      = Scalar.select (IntOp.cmpi .slt (s (ix1 e)) 0#32) (IntOp.addi (s (ix1 e)) k) (s (ix1 e)) :=
  (col_apply hR hb _ e z).trans rfl

end Cert.LibBroadcastRead
-- ==== Proof.RefLayers.lean ====
/-
  The reference program read layer by layer.

  Notation. N = 100000 nodes, E = 1700000 edges (the given ones and one self-loop per node). src(e), dst(e) are the
  edges' end words; a gather reads row srow(e), resp. drow(e): the word after the negative-index wrap, as a signed integer
  clamped into [0, N - 1]. deg is the scatter-add of ones at the target words and dinv = where(deg > 0, rsqrt deg, 0),
  a nonnegative real at every node whatever deg is.

  A layer of the reference takes a matrix H of node rows, sends along every edge e the row H(srow e) times
  dinv(srow e) · dinv(drow e), and adds what lands on each node. By the layer law (a message landing on node n has
  drow = n, and a product with the nonnegative real dinv(n) distributes over the sum) this is: send H(srow e) · dinv(srow e),
  add, and multiply node n's sum by dinv(n). Both layers are stated in that second form, against ANY array u of messages
  that holds H(srow e) · dinv(srow e) and any zero operand.
-/
import proofs.«148502_j3307124818738_2_alg».proof.Proof.RefReadP
import proofs.«148502_j3307124818738_2_alg».proof.Proof.LibRowSums
import proofs.«148502_j3307124818738_2_alg».proof.Proof.LibGatherRead
import proofs.«148502_j3307124818738_2_alg».proof.Proof.LibBroadcastRead
import Idealize.ShloMosaic.PureOps.Ideal.Laws

noncomputable section

namespace Cert.ReferenceIdeal.Layers

open Idealize.ShloMosaic Idealize.ShloMosaic.ValueIdx
open Cert.ReferenceIdeal Cert.ReferenceIdeal.Gen Cert.ReferenceIdeal.ReadP
open Cert.LibRowSums Cert.LibBroadcastRead Cert.LibGatherRead

variable (x0 : S100000x512.Idx → EReal) (x1 : S2x1600000.Idx → BitVec 32) (x2 : S512x128.Idx → EReal)
  (x3 : S128.Idx → EReal) (x4 : S128x32.Idx → EReal) (x5 : S32.Idx → EReal)

/-! ## The graph: end words, rows read, the normalisation -/

/-- Edge e's source word, target word; node n's `where(deg > 0, rsqrt deg, 0)`. -/
def src (e : Fin 1700000) : BitVec 32 := val_main_v3 (F := Ideal) x1 (ix1 e)
def dst (e : Fin 1700000) : BitVec 32 := val_main_v6 (F := Ideal) x1 (ix1 e)
def dinv (n : Fin 100000) : EReal := val_main_v14 (F := Ideal) x1 (ix1 n)
/-- The rows a gather reads for edge e's source and target words. -/
def srow (e : Fin 1700000) : Fin 100000 := rowOf 100000 (by decide) (src x1 e) 100000#32
def drow (e : Fin 1700000) : Fin 100000 := rowOf 100000 (by decide) (dst x1 e) 100000#32

/-- dinv is a nonnegative real at every node. -/
theorem dinv_range (n : Fin 100000) : 0 ≤ dinv x1 n ∧ dinv x1 n ≠ ⊤ := by
  have h := where_rsqrt_range (val_main_v10 (F := Ideal) x1 (ix1 n))
  have e : dinv x1 n = Scalar.select (Ideal.cmp .ogt (val_main_v10 (F := Ideal) x1 (ix1 n)) 0)
      (Ideal.rsqrt (val_main_v10 (F := Ideal) x1 (ix1 n))) (0 : EReal) := by
    unfold dinv
    rw [val_main_v14_apply, val_main_v12_apply, val_main_v13_apply, val_main_v11_apply, val_main_cst_1_apply,
      val_main_call0_v1_apply, val_main_call0_v0_apply, val_main_cst_2_apply]
    simp only [Ideal.cmpf_def, Ideal.hostUnary_rsqrt_def, Ideal.ofBits_def, Ideal.ofBits_zero_f32]
  rw [e]; exact h

/-- The four columns of wrapped words the gathers read, at (e, 0). -/
theorem v20_at (e : Fin 1700000) : val_main_v20 (F := Ideal) x1 (ix2 e (0 : Fin 1))
    = Scalar.select (IntOp.cmpi .slt (src x1 e) 0#32) (IntOp.addi (src x1 e) 100000#32) (src x1 e) := by
  unfold val_main_v20 val_main_v19 val_main_v16 val_main_v18 val_main_v15 val_main_v17 val_main_c val_main_c_3
  exact wrapcol_apply (by decide) _ _ _ _ _ e 0
theorem v27_at (e : Fin 1700000) : val_main_v27 (F := Ideal) x1 (ix2 e (0 : Fin 1))
    = Scalar.select (IntOp.cmpi .slt (dst x1 e) 0#32) (IntOp.addi (dst x1 e) 100000#32) (dst x1 e) := by
  unfold val_main_v27 val_main_v26 val_main_v23 val_main_v25 val_main_v22 val_main_v24 val_main_c_4 val_main_c_5
  exact wrapcol_apply (by decide) _ _ _ _ _ e 0
theorem v36_at (e : Fin 1700000) : val_main_v36 (F := Ideal) x1 (ix2 e (0 : Fin 1))
    = Scalar.select (IntOp.cmpi .slt (src x1 e) 0#32) (IntOp.addi (src x1 e) 100000#32) (src x1 e) := by
  unfold val_main_v36 val_main_v35 val_main_v32 val_main_v34 val_main_v31 val_main_v33 val_main_c_6 val_main_c_7
  exact wrapcol_apply (by decide) _ _ _ _ _ e 0
theorem v54_at (e : Fin 1700000) : val_main_v54 (F := Ideal) x1 (ix2 e (0 : Fin 1))
    = Scalar.select (IntOp.cmpi .slt (src x1 e) 0#32) (IntOp.addi (src x1 e) 100000#32) (src x1 e) := by
  unfold val_main_v54 val_main_v53 val_main_v50 val_main_v52 val_main_v49 val_main_v51 val_main_c_9 val_main_c_10
  exact wrapcol_apply (by decide) _ _ _ _ _ e 0

/-- The column of raw target words the scatters read, at (e, 0). -/
theorem v42_at (e : Fin 1700000) (z : Fin 1) : val_main_v42 (F := Ideal) x1 (ix2 e z) = dst x1 e := by
  unfold val_main_v42; exact col_apply (by decide) _ _ e z
theorem v60_at (e : Fin 1700000) (z : Fin 1) : val_main_v60 (F := Ideal) x1 (ix2 e z) = dst x1 e := by
  unfold val_main_v60; exact col_apply (by decide) _ _ e z
theorem v60_eq_v42 : val_main_v60 (F := Ideal) x1 = val_main_v42 (F := Ideal) x1 := rfl

/-- The per-edge normalisation: dinv at the source row times dinv at the target row. -/
theorem v29_at (e : Fin 1700000) : (val_main_v29 (F := Ideal) x1 (ix1 e) : EReal) = dinv x1 (srow x1 e) * dinv x1 (drow x1 e) := by
  have h21 : val_main_v21 (F := Ideal) x1 (ix1 e) = dinv x1 (srow x1 e) := by
    unfold val_main_v21
    exact (gather_entry_apply (N := 100000) (R := 1700000) (by decide) gather_S100000_S1700000x1_S1700000_n_0_n_n_0_1_1_wf _ _ e).trans
      (congrArg (fun r => val_main_v14 (F := Ideal) x1 (ix1 r)) (rowOf_eq (by decide) _ _ _ _ (v20_at x1 e)))
  have h28 : val_main_v28 (F := Ideal) x1 (ix1 e) = dinv x1 (drow x1 e) := by
    unfold val_main_v28
    exact (gather_entry_apply (N := 100000) (R := 1700000) (by decide) gather_S100000_S1700000x1_S1700000_n_0_n_n_0_1_1_wf _ _ e).trans
      (congrArg (fun r => val_main_v14 (F := Ideal) x1 (ix1 r)) (rowOf_eq (by decide) _ _ _ _ (v27_at x1 e)))
  rw [val_main_v29_apply, h21, h28]; rfl

/-! ## Layer 1 -/

/-- The first dense product: row r of x times W1. -/
def h1 : S100000x128.Idx → EReal := val_main_v30 (F := Ideal) x0 x2
theorem h1_at (r : Fin 100000) (k : Fin 128) : h1 x0 x2 (ix2 r k) = ∑ q : Fin 512, x0 (ix2 r q) * x2 (ix2 q k) := by
  unfold h1
  rw [val_main_v30_apply]
  refine Finset.sum_congr rfl fun q _ => ?_
  have el : lidx_main_v30 (ix2 r k) q = ix2 r q := funext fun b => Fin.ext (by match b with | ⟨0, _⟩ => rfl | ⟨1, _⟩ => rfl)
  have er : ridx_main_v30 (ix2 r k) q = ix2 q k := funext fun b => Fin.ext (by match b with | ⟨0, _⟩ => rfl | ⟨1, _⟩ => rfl)
  rw [el, er]

/-- The reference's message on edge e, column k. -/
theorem v40_at (e : Fin 1700000) (k : Fin 128) : (val_main_v40 (F := Ideal) x0 x1 x2 (ix2 e k) : EReal)
    = h1 x0 x2 (ix2 (srow x1 e) k) * (dinv x1 (srow x1 e) * dinv x1 (drow x1 e)) := by
  have h37 : val_main_v37 (F := Ideal) x0 x1 x2 (ix2 e k) = h1 x0 x2 (ix2 (srow x1 e) k) := by
    unfold val_main_v37
    exact (gather_rows_apply (N := 100000) (R := 1700000) (C := 128) (by decide)
        gather_S100000x128_S1700000x1_S1700000x128_1_0_n_n_0_1_1128_wf _ _ e k).trans
      (congrArg (fun r => val_main_v30 (F := Ideal) x0 x2 (ix2 r k)) (rowOf_eq (by decide) _ _ _ _ (v36_at x1 e)))
  have h39 : val_main_v39 (F := Ideal) x1 (ix2 e k) = val_main_v29 (F := Ideal) x1 (ix1 e) := by
    unfold val_main_v39 val_main_v38
    exact (colmat_apply (by decide) _ _ e k).trans (col_apply (by decide) _ _ e 0)
  rw [val_main_v40_apply, h37, h39, v29_at]; rfl

/-- The first aggregation, reference form. -/
def a1 : S100000x128.Idx → EReal := val_main_v43 (F := Ideal) x0 x1 x2

/-- The aggregate is the scatter-add of the messages into zeros at the raw target words. -/
theorem a1_eq : a1 x0 x1 x2 = Ideal.hostScatterAdd
    (rowsScatter 100000 1700000 128 scatter_S100000x128_S1700000x1_S1700000x128_1_0_0_1_wf)
    (val_main_v41 (F := Ideal)) (val_main_v42 (F := Ideal) x1) (val_main_v40 (F := Ideal) x0 x1 x2) := rfl
theorem v41_zero (i : S100000x128.Idx) : (val_main_v41 (F := Ideal) i : EReal) = 0 := by
  rw [val_main_v41_apply, val_main_cst_8_apply]; exact Ideal.ofBits_zero_f32
/-- The message with its target row spelt as the gather reads the raw target word. -/
theorem v40_at' (e : Fin 1700000) (a : Fin 128) : (val_main_v40 (F := Ideal) x0 x1 x2 (ix2 e a) : EReal)
    = h1 x0 x2 (ix2 (srow x1 e) a) * (dinv x1 (srow x1 e)
        * dinv x1 (rowOf 100000 (by decide) (val_main_v42 (F := Ideal) x1 (ix2 e (0 : Fin 1))) 100000#32)) := by
  rw [v40_at, v42_at]; rfl

/-- LAYER 1 in the scaled form: against any zero operand z and any message array u holding the source row of the dense
    product times dinv at the source, the reference's aggregate at (n, k) is the scatter-add of u there, times dinv(n). -/
theorem layer1 (z : S100000x128.Idx → EReal) (hz : ∀ i, z i = 0) (u : S1700000x128.Idx → EReal)
    (hu : ∀ e k, u (ix2 e k) = h1 x0 x2 (ix2 (srow x1 e) k) * dinv x1 (srow x1 e)) (n : Fin 100000) (k : Fin 128) :
    a1 x0 x1 x2 (ix2 n k)
      = Ideal.hostScatterAdd (rowsScatter 100000 1700000 128 scatter_S100000x128_S1700000x1_S1700000x128_1_0_0_1_wf)
          z (val_main_v42 (F := Ideal) x1) u (ix2 n k) * dinv x1 n := by
  rw [a1_eq]
  exact layer_scale (N := 100000) (R := 1700000) (C := 128) (by decide) scatter_S100000x128_S1700000x1_S1700000x128_1_0_0_1_wf
    z (val_main_v41 (F := Ideal)) hz (v41_zero) (val_main_v42 (F := Ideal) x1) 100000#32 (dinv x1)
    (fun m => (dinv_range x1 m).1) (fun m => (dinv_range x1 m).2) (h1 x0 x2) (srow x1) u
    (val_main_v40 (F := Ideal) x0 x1 x2) hu (v40_at' x0 x1 x2) n k

/-! ## Layer 2 -/

/-- The bias row and the rectifier: entry (r, k) of the second dense product's left operand. -/
theorem v47_at (r : Fin 100000) (k : Fin 128) :
    (val_main_v47 (F := Ideal) x0 x1 x2 x3 (ix2 r k) : EReal) = max (a1 x0 x1 x2 (ix2 r k) + x3 (ix1 k)) 0 := by
  have h45 : val_main_v45 (F := Ideal) x3 (ix2 r k) = x3 (ix1 k) := by
    unfold val_main_v45 val_main_v44
    exact (rowmat_apply (by decide) _ _ r k).trans (vecrow_apply (by decide) _ _ 0 k)
  have h0 : val_main_call1_v0 (F := Ideal) (ix2 r k) = (0 : EReal) := by
    rw [val_main_call1_v0_apply, val_main_call1_cst_apply]; exact Ideal.ofBits_zero_f32
  rw [val_main_v47_apply, val_main_v46_apply, h45, h0]; rfl

/-- The second dense product: relu(aggregate + b1) times W2. -/
def h2 : S100000x32.Idx → EReal := val_main_v48 (F := Ideal) x0 x1 x2 x3 x4
theorem h2_at (r : Fin 100000) (a : Fin 32) :
    h2 x0 x1 x2 x3 x4 (ix2 r a) = ∑ k : Fin 128, max (a1 x0 x1 x2 (ix2 r k) + x3 (ix1 k)) 0 * x4 (ix2 k a) := by
  unfold h2
  rw [val_main_v48_apply]
  refine Finset.sum_congr rfl fun k _ => ?_
  have el : lidx_main_v48 (ix2 r a) k = ix2 r k := funext fun b => Fin.ext (by match b with | ⟨0, _⟩ => rfl | ⟨1, _⟩ => rfl)
  have er : ridx_main_v48 (ix2 r a) k = ix2 k a := funext fun b => Fin.ext (by match b with | ⟨0, _⟩ => rfl | ⟨1, _⟩ => rfl)
  rw [el, er, v47_at]

theorem v58_at (e : Fin 1700000) (a : Fin 32) : (val_main_v58 (F := Ideal) x0 x1 x2 x3 x4 (ix2 e a) : EReal)
    = h2 x0 x1 x2 x3 x4 (ix2 (srow x1 e) a) * (dinv x1 (srow x1 e) * dinv x1 (drow x1 e)) := by
  have h55 : val_main_v55 (F := Ideal) x0 x1 x2 x3 x4 (ix2 e a) = h2 x0 x1 x2 x3 x4 (ix2 (srow x1 e) a) := by
    unfold val_main_v55
    exact (gather_rows_apply (N := 100000) (R := 1700000) (C := 32) (by decide)
        gather_S100000x32_S1700000x1_S1700000x32_1_0_n_n_0_1_132_wf _ _ e a).trans
      (congrArg (fun r => val_main_v48 (F := Ideal) x0 x1 x2 x3 x4 (ix2 r a)) (rowOf_eq (by decide) _ _ _ _ (v54_at x1 e)))
  have h57 : val_main_v57 (F := Ideal) x1 (ix2 e a) = val_main_v29 (F := Ideal) x1 (ix1 e) := by
    unfold val_main_v57 val_main_v56
    exact (colmat_apply (by decide) _ _ e a).trans (col_apply (by decide) _ _ e 0)
  rw [val_main_v58_apply, h55, h57, v29_at]; rfl

/-- The second aggregation, reference form: the scatter-add of the messages into zeros at the raw target words. -/
def a2 : S100000x32.Idx → EReal := val_main_v61 (F := Ideal) x0 x1 x2 x3 x4
theorem a2_eq : a2 x0 x1 x2 x3 x4 = Ideal.hostScatterAdd
    (rowsScatter 100000 1700000 32 scatter_S100000x32_S1700000x1_S1700000x32_1_0_0_1_wf)
    (val_main_v59 (F := Ideal)) (val_main_v42 (F := Ideal) x1) (val_main_v58 (F := Ideal) x0 x1 x2 x3 x4) := rfl
theorem v59_zero (i : S100000x32.Idx) : (val_main_v59 (F := Ideal) i : EReal) = 0 := by
  rw [val_main_v59_apply, val_main_cst_11_apply]; exact Ideal.ofBits_zero_f32
theorem v58_at' (e : Fin 1700000) (a : Fin 32) : (val_main_v58 (F := Ideal) x0 x1 x2 x3 x4 (ix2 e a) : EReal)
    = h2 x0 x1 x2 x3 x4 (ix2 (srow x1 e) a) * (dinv x1 (srow x1 e)
        * dinv x1 (rowOf 100000 (by decide) (val_main_v42 (F := Ideal) x1 (ix2 e (0 : Fin 1))) 100000#32)) := by
  rw [v58_at, v42_at]; rfl

/-- LAYER 2 in the scaled form. -/
theorem layer2 (z : S100000x32.Idx → EReal) (hz : ∀ i, z i = 0) (u : S1700000x32.Idx → EReal)
    (hu : ∀ e a, u (ix2 e a) = h2 x0 x1 x2 x3 x4 (ix2 (srow x1 e) a) * dinv x1 (srow x1 e)) (n : Fin 100000) (a : Fin 32) :
    a2 x0 x1 x2 x3 x4 (ix2 n a)
      = Ideal.hostScatterAdd (rowsScatter 100000 1700000 32 scatter_S100000x32_S1700000x1_S1700000x32_1_0_0_1_wf)
          z (val_main_v42 (F := Ideal) x1) u (ix2 n a) * dinv x1 n := by
  rw [a2_eq]
  exact layer_scale (N := 100000) (R := 1700000) (C := 32) (by decide) scatter_S100000x32_S1700000x1_S1700000x32_1_0_0_1_wf
    z (val_main_v59 (F := Ideal)) hz (v59_zero) (val_main_v42 (F := Ideal) x1) 100000#32 (dinv x1)
    (fun m => (dinv_range x1 m).1) (fun m => (dinv_range x1 m).2) (h2 x0 x1 x2 x3 x4) (srow x1) u
    (val_main_v58 (F := Ideal) x0 x1 x2 x3 x4) hu (v58_at' x0 x1 x2 x3 x4) n a

/-- The reference's result at (n, a): the second aggregate plus the output bias. -/
theorem out_at (n : Fin 100000) (a : Fin 32) :
    (val_main_v64 (F := Ideal) x0 x1 x2 x3 x4 x5 (ix2 n a) : EReal) = a2 x0 x1 x2 x3 x4 (ix2 n a) + x5 (ix1 a) := by
  have h63 : val_main_v63 (F := Ideal) x5 (ix2 n a) = x5 (ix1 a) := by
    unfold val_main_v63 val_main_v62
    exact (rowmat_apply (by decide) _ _ n a).trans (vecrow_apply (by decide) _ _ 0 a)
  rw [val_main_v64_apply, h63]; rfl

end Cert.ReferenceIdeal.Layers

end
-- ==== Proof.LibReshape.lean ====
/-
  A vector of length `n` relaid as an `[n, 1]` column or as a `[1, n]` row holds, at an index, the vector's
  entry at the index's coordinate along the long axis. Two host spellings of that relayout — a reshape (the same
  elements in row-major order) and a broadcast_in_dim placing the vector's axis at axis 0, resp. 1 — are
  therefore the same array: along a unit axis the row-major position does not move.
-/
import Idealize.ShloMosaic.Lib.Pipeline.Value
import Idealize.ShloMosaic.Lib.ValueIdx

namespace Cert.LibReshape

open Idealize.ShloMosaic Idealize.ShloMosaic.ValueIdx

/-- A length-`n` vector reshaped to `[n, 1]` is its broadcast along axis 0: entry `(r, 0)` is the vector's `r`. -/
theorem shapeCast_eq_column {α : Type} {n : Nat} (x : (⟨1, ![n]⟩ : Shape).Idx → α)
    (h : (⟨1, ![n]⟩ : Shape).ShapeCasts ⟨2, ![n, 1]⟩)
    (hb : (⟨1, ![n]⟩ : Shape).BroadcastsInDim ⟨2, ![n, 1]⟩ (![0] : Fin 1 → Fin 2)) :
    shapeCast ⟨2, ![n, 1]⟩ x h = broadcastInDim ⟨2, ![n, 1]⟩ (![0] : Fin 1 → Fin 2) hb x := by
  funext j
  have h0 : (j 0).val < n := idx2_lt0 j
  have h1 : (j 1).val = 0 := by have := idx2_lt1 j; omega
  have e1 := shapeCast_apply x h j (ix1 (⟨(j 0).val, h0⟩ : Fin n)) (by
    rw [Shape.rowMajor_val_one, Shape.rowMajor_val_two]
    show (j 0).val = (j 0).val * 1 + (j 1).val
    omega)
  have e2 := broadcastInDim_apply (![0] : Fin 1 → Fin 2) hb x j (ix1 (⟨(j 0).val, h0⟩ : Fin n)) (fun a => by
    match a with
    | ⟨0, _⟩ =>
      show (j 0).val = if n = 1 then 0 else (j 0).val
      split
      · omega
      · rfl)
  rw [e1, e2]

/-- A length-`n` vector reshaped to `[1, n]` is its broadcast along axis 1: entry `(0, j)` is the vector's `j`. -/
theorem shapeCast_eq_row {α : Type} {n : Nat} (x : (⟨1, ![n]⟩ : Shape).Idx → α)
    (h : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ x h = broadcastInDim ⟨2, ![1, n]⟩ (![1] : Fin 1 → Fin 2) hb x := by
  funext j
  have h0 : (j 0).val = 0 := by have := idx2_lt0 j; omega
  have h1 : (j 1).val < n := idx2_lt1 j
  have e1 := shapeCast_apply x h j (ix1 (⟨(j 1).val, h1⟩ : Fin n)) (by
    rw [Shape.rowMajor_val_one, Shape.rowMajor_val_two]
    show (j 1).val = (j 0).val * n + (j 1).val
    rw [h0]; omega)
  have e2 := broadcastInDim_apply (![1] : Fin 1 → Fin 2) hb x j (ix1 (⟨(j 1).val, h1⟩ : Fin n)) (fun a => by
    match a with
    | ⟨0, _⟩ =>
      show (j 1).val = if n = 1 then 0 else (j 1).val
      split
      · omega
      · rfl)
  rw [e1, e2]

end Cert.LibReshape
-- ==== Proof.Bridge.lean ====
/-
  The idealized kernel's result is the reference's, entry by entry.

  The kernel's program is seven segments. Following the buffers through them:
  * the first stretches compute the edge words src, dst and the node scaling dinv exactly as the reference does, and lay
    dinv as an [N, 1] column;
  * the first pallas_call leaves, in row r, the dense product's row r times dinv(r);
  * the middle stretch gathers those rows along the edges' source words and scatter-adds them at the target words: by
    the layer law this aggregate, times dinv(n), is the reference's first aggregate at node n;
  * the second pallas_call multiplies by dinv(n), adds the bias, rectifies, multiplies by W2 and scales by dinv(n)
    again: row r of the reference's second dense product times dinv(r);
  * the last stretch gathers and scatter-adds once more, multiplies node n's sum by dinv(n) and adds the output bias:
    by the layer law again, the reference's result.
-/
import proofs.«148502_j3307124818738_2_alg».proof.Proof.Gen.KernelIdeal.Frame
import proofs.«148502_j3307124818738_2_alg».proof.Proof.KernelHost
import proofs.«148502_j3307124818738_2_alg».proof.Proof.Blocks0
import proofs.«148502_j3307124818738_2_alg».proof.Proof.Blocks1
import proofs.«148502_j3307124818738_2_alg».proof.Proof.RefLayers
import proofs.«148502_j3307124818738_2_alg».proof.Proof.LibReshape

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal Cert.KernelIdeal.Gen Cert.KernelIdeal.HostRead
open Cert.LibRowSums Cert.LibBroadcastRead Cert.LibGatherRead Cert.LibReshape
open Cert.ReferenceIdeal.Layers (src dst dinv srow drow h1 h2 a1 a2)
open Cert.ReferenceIdeal.ReadP (val_main_v3 val_main_v6 val_main_v12 val_main_v13 val_main_cst_2 val_main_v14 val_main_v42 val_main_v64)

variable (m : (ℓ : Loc nD τ sig) → Buf (Elt Ideal) ℓ) (ρ : Dev nD → PrngReg) (c : Dev nD)

/-! ## The argument arrays -/

def X0 : S100000x512.Idx → EReal := m ((c.tc : Thread nD τ).loc main_arg0)
def X1 : S2x1600000.Idx → BitVec 32 := m ((c.tc : Thread nD τ).loc main_arg1)
def X2 : S512x128.Idx → EReal := m ((c.tc : Thread nD τ).loc main_arg2)
def X3 : S128.Idx → EReal := m ((c.tc : Thread nD τ).loc main_arg3)
def X4 : S128x32.Idx → EReal := m ((c.tc : Thread nD τ).loc main_arg4)
def X5 : S32.Idx → EReal := m ((c.tc : Thread nD τ).loc main_arg5)

/-- The node scaling as the [N, 1] column the pallas_calls read, and the first bias as a [1, 128] row. -/
def DCOL : S100000x1.Idx → EReal := shapeCast S100000x1 (val_main_v14 (F := Ideal) (X1 m c)) shapeCasts_S100000_S100000x1
def BROW : S1x128.Idx → EReal := shapeCast S1x128 (X3 m c) shapeCasts_S128_S1x128

theorem dcol_at (r : Fin 100000) (z : Fin 1) : DCOL m c (ix2 r z) = dinv (X1 m c) r := by
  unfold DCOL
  rw [shapeCast_eq_column _ _ (by decide)]
  exact col_apply (by decide) _ _ r z
theorem brow_at (z : Fin 1) (k : Fin 128) : BROW m c (ix2 z k) = X3 m c (ix1 k) := by
  unfold BROW
  rw [shapeCast_eq_row _ _ (by decide)]
  exact vecrow_apply (by decide) _ _ z k

/-! ## The buffers at the segment boundaries -/

theorem w1_v3 : W1 (F := Ideal) m ρ c (Proc.devRef .tc main_v3) = val_main_v3 (F := Ideal) (X1 m c) := ops0_v3 (W0 m ρ c)
theorem w1_v6 : W1 (F := Ideal) m ρ c (Proc.devRef .tc main_v6) = val_main_v6 (F := Ideal) (X1 m c) := ops0_v6 (W0 m ρ c)

theorem w2_v14 : W2 (F := Ideal) m ρ c (Proc.devRef .tc main_v14) = val_main_v14 (F := Ideal) (X1 m c) := by
  refine (ops0_1_v14 (W1 m ρ c)).trans ?_
  rw [show W1 (F := Ideal) m ρ c (Proc.devRef .tc main_v12) = val_main_v12 (F := Ideal) (X1 m c) from ops0_v12 (W0 m ρ c),
    show W1 (F := Ideal) m ρ c (Proc.devRef .tc main_v13) = val_main_v13 (F := Ideal) (X1 m c) from ops0_v13 (W0 m ρ c),
    show W1 (F := Ideal) m ρ c (Proc.devRef .tc main_cst_2) = val_main_cst_2 (F := Ideal) from ops0_cst2 (W0 m ρ c)]
  rfl

/-- The first pallas_call's entry: what no early stretch writes is as at the end of the first stretch. -/
theorem w3_of_w1 (b : Ref sig .tc) (hb1 : b ≠ main_call0_v0 ∧ b ≠ main_call0_v1 ∧ b ≠ main_v14) (hb2 : b ≠ main_v15) :
    W3 (F := Ideal) m ρ c (Proc.devRef .tc b) = W1 (F := Ideal) m ρ c (Proc.devRef .tc b) :=
  (pass0_2 _ b hb2).trans (pass0_1 _ b hb1)

theorem w3_v15 : W3 (F := Ideal) m ρ c (Proc.devRef .tc main_v15) = DCOL m c := by
  refine (ops0_2_v15 (W2 m ρ c)).trans ?_
  rw [w2_v14]; rfl
theorem w3_v3 : W3 (F := Ideal) m ρ c (Proc.devRef .tc main_v3) = val_main_v3 (F := Ideal) (X1 m c) :=
  (w3_of_w1 m ρ c main_v3 (by decide) (by decide)).trans (w1_v3 m ρ c)
theorem w3_v6 : W3 (F := Ideal) m ρ c (Proc.devRef .tc main_v6) = val_main_v6 (F := Ideal) (X1 m c) :=
  (w3_of_w1 m ρ c main_v6 (by decide) (by decide)).trans (w1_v6 m ρ c)
theorem w3_arg0 : W3 (F := Ideal) m ρ c (Proc.devRef .tc main_arg0) = X0 m c :=
  (w3_of_w1 m ρ c main_arg0 (by decide) (by decide)).trans ((pass0_arg0 (W0 m ρ c)).trans rfl)
theorem w3_arg2 : W3 (F := Ideal) m ρ c (Proc.devRef .tc main_arg2) = X2 m c :=
  (w3_of_w1 m ρ c main_arg2 (by decide) (by decide)).trans ((pass0_arg2 (W0 m ρ c)).trans rfl)
theorem w3_arg3 : W3 (F := Ideal) m ρ c (Proc.devRef .tc main_arg3) = X3 m c :=
  (w3_of_w1 m ρ c main_arg3 (by decide) (by decide)).trans ((pass0_arg3 (W0 m ρ c)).trans rfl)
theorem w3_arg4 : W3 (F := Ideal) m ρ c (Proc.devRef .tc main_arg4) = X4 m c :=
  (w3_of_w1 m ρ c main_arg4 (by decide) (by decide)).trans ((pass0_arg4 (W0 m ρ c)).trans rfl)
theorem w3_arg5 : W3 (F := Ideal) m ρ c (Proc.devRef .tc main_arg5) = X5 m c :=
  (w3_of_w1 m ρ c main_arg5 (by decide) (by decide)).trans ((pass0_arg5 (W0 m ρ c)).trans rfl)

/-- The first pallas_call's exit. -/
theorem w4_v15 : W4 (F := Ideal) m ρ c (Proc.devRef .tc main_v15) = DCOL m c :=
  ((W4_arr m ρ c 2).trans (((dat0 (V3 m ρ) c).arrAt_in 2 rfl _).trans (A_eq0 (V3 m ρ) c 2))).trans (w3_v15 m ρ c)
theorem w4_v3 : W4 (F := Ideal) m ρ c (Proc.devRef .tc main_v3) = val_main_v3 (F := Ideal) (X1 m c) :=
  (W4_of_ne m ρ c main_v3 (by decide)).trans (w3_v3 m ρ c)
theorem w4_v6 : W4 (F := Ideal) m ρ c (Proc.devRef .tc main_v6) = val_main_v6 (F := Ideal) (X1 m c) :=
  (W4_of_ne m ρ c main_v6 (by decide)).trans (w3_v6 m ρ c)
theorem w4_arg3 : W4 (F := Ideal) m ρ c (Proc.devRef .tc main_arg3) = X3 m c :=
  (W4_of_ne m ρ c main_arg3 (by decide)).trans (w3_arg3 m ρ c)
theorem w4_arg4 : W4 (F := Ideal) m ρ c (Proc.devRef .tc main_arg4) = X4 m c :=
  (W4_of_ne m ρ c main_arg4 (by decide)).trans (w3_arg4 m ρ c)
theorem w4_arg5 : W4 (F := Ideal) m ρ c (Proc.devRef .tc main_arg5) = X5 m c :=
  (W4_of_ne m ρ c main_arg5 (by decide)).trans (w3_arg5 m ρ c)

/-- Row r of the first pallas_call's result: the dense product's row r times dinv(r). -/
theorem hs1_at (r : Fin 100000) (k : Fin 128) :
    (W4 (F := Ideal) m ρ c (Proc.devRef .tc main_v16) : S100000x128.Idx → EReal) (ix2 r k)
      = h1 (X0 m c) (X2 m c) (ix2 r k) * dinv (X1 m c) r := by
  refine (congrFun (W4_arr m ρ c 3) (ix2 r k)).trans ?_
  refine (Cert.KernelIdeal.Blocks0.arr3 (V3 m ρ) c (X0 m c) (X2 m c) (DCOL m c)
    (w3_arg0 m ρ c) (w3_arg2 m ρ c) (w3_v15 m ρ c) r k).trans ?_
  rw [Cert.ReferenceIdeal.Layers.h1_at, dcol_at]

/-! ## Messages along the edges -/

/-- Rows of a node matrix gathered along the source words (after the negative-index wrap) and widened to f32. -/
def msgs {C : Nat} (g : GatherDims ⟨2, ![100000, C]⟩ ⟨2, ![1700000, 1]⟩ ⟨2, ![1700000, C]⟩)
    (HS : (⟨2, ![100000, C]⟩ : Shape).Idx → EReal) (s : IVec S1700000 32) : (⟨2, ![1700000, C]⟩ : Shape).Idx → EReal :=
  extf (F := Ideal) .f32 (Host.gather g HS (broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s))) bitsLt_bf16_f32

/-- The message on edge e is the row the gather reads for e's source word. -/
theorem msgs_at {C : Nat}
    (wf : GatherDims.WF ⟨2, ![100000, C]⟩ ⟨2, ![1700000, 1]⟩ ⟨2, ![1700000, C]⟩ [1] [0] [] [0] [] 1 ![1, C])
    (HS : (⟨2, ![100000, C]⟩ : Shape).Idx → EReal) (s : IVec S1700000 32) (e : Fin 1700000) (a : Fin C) :
    msgs (rowsDims 100000 1700000 C wf) HS s (ix2 e a) = HS (ix2 (rowOf 100000 (by decide) (s (ix1 e)) 100000#32) a) := by
  unfold msgs
  show Host.gather (rowsDims 100000 1700000 C wf) HS _ (ix2 e a) = _
  exact (gather_rows_apply (N := 100000) (R := 1700000) (C := C) (by decide) wf HS _ e a).trans
    (congrArg (fun r => HS (ix2 r a)) (rowOf_eq (by decide) _ _ _ _ (wrapcol_apply (by decide) _ _ _ s 100000#32 e 0)))

/-- The zero operands the scatter-adds start from. -/
def Z1 : S100000x128.Idx → EReal := broadcastInDim S100000x128 ![] bcast_S_S100000x128 (constant (F := Ideal) S_ .f32 0x00000000#32)
def Z2 : S100000x32.Idx → EReal := broadcastInDim S100000x32 ![] bcast_S_S100000x32 (constant (F := Ideal) S_ .f32 0x00000000#32)
theorem z1_zero (i : S100000x128.Idx) : Z1 i = 0 := (splat_apply _ _ i).trans Ideal.ofBits_zero_f32
theorem z2_zero (i : S100000x32.Idx) : Z2 i = 0 := (splat_apply _ _ i).trans Ideal.ofBits_zero_f32

/-! ## Layer 1 -/

/-- The messages of layer 1 and their aggregate. -/
def U1 : S1700000x128.Idx → EReal :=
  msgs gather_S100000x128_S1700000x1_S1700000x128_1_0_n_n_0_1_1128 (W4 (F := Ideal) m ρ c (Proc.devRef .tc main_v16))
    (W4 (F := Ideal) m ρ c (Proc.devRef .tc main_v3))
def AGG1 : S100000x128.Idx → EReal := W5 (F := Ideal) m ρ c (Proc.devRef .tc main_v27)

theorem u1_at (e : Fin 1700000) (k : Fin 128) :
    U1 m ρ c (ix2 e k) = h1 (X0 m c) (X2 m c) (ix2 (srow (X1 m c) e) k) * dinv (X1 m c) (srow (X1 m c) e) := by
  unfold U1
  refine (msgs_at gather_S100000x128_S1700000x1_S1700000x128_1_0_n_n_0_1_1128_wf _ _ e k).trans ?_
  rw [w4_v3]
  exact hs1_at m ρ c (srow (X1 m c) e) k

theorem agg1_eq : AGG1 m ρ c = Ideal.hostScatterAdd
    (rowsScatter 100000 1700000 128 Cert.ReferenceIdeal.Gen.scatter_S100000x128_S1700000x1_S1700000x128_1_0_0_1_wf)
    Z1 (val_main_v42 (F := Ideal) (X1 m c)) (U1 m ρ c) := by
  unfold AGG1
  refine (ops1_v27 (W4 m ρ c)).trans ?_
  rw [w4_v6]
  rfl

/-- The kernel's first aggregate at node n, times dinv(n), is the reference's. -/
theorem agg1_scaled (n : Fin 100000) (k : Fin 128) :
    AGG1 m ρ c (ix2 n k) * dinv (X1 m c) n = a1 (X0 m c) (X1 m c) (X2 m c) (ix2 n k) := by
  rw [agg1_eq]
  exact (Cert.ReferenceIdeal.Layers.layer1 (X0 m c) (X1 m c) (X2 m c) Z1 z1_zero (U1 m ρ c) (u1_at m ρ c) n k).symm

/-! ## The second pallas_call -/

theorem w5_v15 : W5 (F := Ideal) m ρ c (Proc.devRef .tc main_v15) = DCOL m c := (pass1_v15 _).trans (w4_v15 m ρ c)
theorem w5_v28 : W5 (F := Ideal) m ρ c (Proc.devRef .tc main_v28) = BROW m c := by
  refine (ops1_v28 (W4 m ρ c)).trans ?_
  rw [w4_arg3]; rfl
theorem w5_arg4 : W5 (F := Ideal) m ρ c (Proc.devRef .tc main_arg4) = X4 m c := (pass1_arg4 _).trans (w4_arg4 m ρ c)
theorem w5_v3 : W5 (F := Ideal) m ρ c (Proc.devRef .tc main_v3) = val_main_v3 (F := Ideal) (X1 m c) := (pass1_v3 _).trans (w4_v3 m ρ c)
theorem w5_v6 : W5 (F := Ideal) m ρ c (Proc.devRef .tc main_v6) = val_main_v6 (F := Ideal) (X1 m c) := (pass1_v6 _).trans (w4_v6 m ρ c)
theorem w5_arg5 : W5 (F := Ideal) m ρ c (Proc.devRef .tc main_arg5) = X5 m c := (pass1_arg5 _).trans (w4_arg5 m ρ c)

theorem w6_v15 : W6 (F := Ideal) m ρ c (Proc.devRef .tc main_v15) = DCOL m c :=
  ((W6_arr m ρ c 1).trans (((dat1 (V5 m ρ) c).arrAt_in 1 rfl _).trans (A_eq1 (V5 m ρ) c 1))).trans (w5_v15 m ρ c)
theorem w6_v3 : W6 (F := Ideal) m ρ c (Proc.devRef .tc main_v3) = val_main_v3 (F := Ideal) (X1 m c) :=
  (W6_of_ne m ρ c main_v3 (by decide)).trans (w5_v3 m ρ c)
theorem w6_v6 : W6 (F := Ideal) m ρ c (Proc.devRef .tc main_v6) = val_main_v6 (F := Ideal) (X1 m c) :=
  (W6_of_ne m ρ c main_v6 (by decide)).trans (w5_v6 m ρ c)
theorem w6_arg5 : W6 (F := Ideal) m ρ c (Proc.devRef .tc main_arg5) = X5 m c :=
  (W6_of_ne m ρ c main_arg5 (by decide)).trans (w5_arg5 m ρ c)

/-- Row r of the second pallas_call's result: the reference's second dense product's row r times dinv(r). -/
theorem hs2_at (r : Fin 100000) (a : Fin 32) :
    (W6 (F := Ideal) m ρ c (Proc.devRef .tc main_v29) : S100000x32.Idx → EReal) (ix2 r a)
      = h2 (X0 m c) (X1 m c) (X2 m c) (X3 m c) (X4 m c) (ix2 r a) * dinv (X1 m c) r := by
  refine (congrFun (W6_arr m ρ c 4) (ix2 r a)).trans ?_
  refine (Cert.KernelIdeal.Blocks1.arr4 (V5 m ρ) c (AGG1 m ρ c) (DCOL m c) (BROW m c) (X4 m c)
    rfl (w5_v15 m ρ c) (w5_v28 m ρ c) (w5_arg4 m ρ c) r a).trans ?_
  rw [Cert.ReferenceIdeal.Layers.h2_at, dcol_at]
  refine congrArg (· * dinv (X1 m c) r) (Finset.sum_congr rfl fun k _ => ?_)
  rw [agg1_scaled, brow_at]

/-! ## Layer 2 and the result -/

def U2 : S1700000x32.Idx → EReal :=
  msgs gather_S100000x32_S1700000x1_S1700000x32_1_0_n_n_0_1_132 (W6 (F := Ideal) m ρ c (Proc.devRef .tc main_v29))
    (W6 (F := Ideal) m ρ c (Proc.devRef .tc main_v3))
def AGG2 : S100000x32.Idx → EReal :=
  Host.scatterAdd (F := Ideal) (φ := .f32) scatter_S100000x32_S1700000x1_S1700000x32_1_0_0_1 Z2
    (broadcastInDim S1700000x1 ![0] bcast_S1700000_S1700000x1_0 (W6 (F := Ideal) m ρ c (Proc.devRef .tc main_v6))) (U2 m ρ c)
/-- The node scaling repeated along the classes, and the output bias repeated down the nodes. -/
def DC6 : S100000x32.Idx → EReal :=
  broadcastInDim S100000x32 ![0, 1] bcast_S100000x1_S100000x32_0_1 (W6 (F := Ideal) m ρ c (Proc.devRef .tc main_v15))
def B6 : S100000x32.Idx → EReal :=
  broadcastInDim S100000x32 ![0, 1] bcast_S1x32_S100000x32_0_1
    (broadcastInDim S1x32 ![1] bcast_S32_S1x32_1 (W6 (F := Ideal) m ρ c (Proc.devRef .tc main_arg5)))

theorem u2_at (e : Fin 1700000) (a : Fin 32) :
    U2 m ρ c (ix2 e a) = h2 (X0 m c) (X1 m c) (X2 m c) (X3 m c) (X4 m c) (ix2 (srow (X1 m c) e) a) * dinv (X1 m c) (srow (X1 m c) e) := by
  unfold U2
  refine (msgs_at gather_S100000x32_S1700000x1_S1700000x32_1_0_n_n_0_1_132_wf _ _ e a).trans ?_
  rw [w6_v3]
  exact hs2_at m ρ c (srow (X1 m c) e) a

theorem agg2_eq : AGG2 m ρ c = Ideal.hostScatterAdd
    (rowsScatter 100000 1700000 32 Cert.ReferenceIdeal.Gen.scatter_S100000x32_S1700000x1_S1700000x32_1_0_0_1_wf)
    Z2 (val_main_v42 (F := Ideal) (X1 m c)) (U2 m ρ c) := by
  unfold AGG2
  rw [w6_v6]
  rfl

theorem agg2_scaled (n : Fin 100000) (a : Fin 32) :
    AGG2 m ρ c (ix2 n a) * dinv (X1 m c) n = a2 (X0 m c) (X1 m c) (X2 m c) (X3 m c) (X4 m c) (ix2 n a) := by
  rw [agg2_eq]
  exact (Cert.ReferenceIdeal.Layers.layer2 (X0 m c) (X1 m c) (X2 m c) (X3 m c) (X4 m c) Z2 z2_zero (U2 m ρ c) (u2_at m ρ c) n a).symm

theorem dc6_at (n : Fin 100000) (a : Fin 32) : DC6 m ρ c (ix2 n a) = dinv (X1 m c) n := by
  unfold DC6
  refine (colmat_apply (by decide) _ _ n a).trans ?_
  rw [w6_v15]; exact dcol_at m c n 0
theorem b6_at (n : Fin 100000) (a : Fin 32) : B6 m ρ c (ix2 n a) = X5 m c (ix1 a) := by
  unfold B6
  refine (rowmat_apply (by decide) _ _ n a).trans ((vecrow_apply (by decide) _ _ 0 a).trans ?_)
  rw [w6_arg5]

/-- A sum and a product of arrays at an index. -/
theorem addf_at {s : Shape} (P Q : s.Idx → EReal) (i : s.Idx) : addf (F := Ideal) (φ := .f32) P Q i = P i + Q i := rfl
theorem mulf_at {s : Shape} (P Q : s.Idx → EReal) (i : s.Idx) : mulf (F := Ideal) (φ := .f32) P Q i = P i * Q i := rfl

/-- The result array: node scaling times the second aggregate, plus the output bias. -/
theorem w7_eq : W7 (F := Ideal) m ρ c (Proc.devRef .tc main_v45)
    = addf (F := Ideal) (φ := .f32) (mulf (F := Ideal) (φ := .f32) (DC6 m ρ c) (AGG2 m ρ c)) (B6 m ρ c) :=
  ops2_v45 (W6 m ρ c)

/-- THE RESULT, entry by entry. -/
theorem value_at (n : Fin 100000) (a : Fin 32) :
    (W7 (F := Ideal) m ρ c (Proc.devRef .tc main_v45) : S100000x32.Idx → EReal) (ix2 n a)
      = val_main_v64 (F := Ideal) (X0 m c) (X1 m c) (X2 m c) (X3 m c) (X4 m c) (X5 m c) (ix2 n a) := by
  refine (congrFun (w7_eq m ρ c) (ix2 n a)).trans ?_
  rw [addf_at, mulf_at, dc6_at, b6_at, Cert.ReferenceIdeal.Layers.out_at, ← agg2_scaled, mul_comm]

/-- The result array is the reference's. -/
theorem value : W7 (F := Ideal) m ρ c (Proc.devRef .tc main_v45)
    = val_main_v64 (F := Ideal) (X0 m c) (X1 m c) (X2 m c) (X3 m c) (X4 m c) (X5 m c) := by
  funext i
  obtain ⟨n, a, rfl⟩ : ∃ (n : Fin 100000) (a : Fin 32), i = ix2 n a := ⟨i 0, i 1, eq_ix2 i⟩
  exact value_at m ρ c n a

end Cert.Bridge

end
-- ==== Proof.lean ====
/-
  A two-layer graph convolution: the kernel against its reference, over the extended reals.

  N = 100000 nodes with 512 features, E = 1600000 given edges plus one self-loop per node. With deg(n) the number of
  edges whose target word names n and dinv = where(deg > 0, deg^(-1/2), 0), a layer takes node rows H to
      out(n) = Σ over edges e landing on n of  H(source row of e) · dinv(source) · dinv(target)   + bias.
  The reference computes exactly that, twice, with a rectifier between. The kernel computes the dense products H = X·W in
  two pallas_calls and moves the normalisation out of the edge sum: it scales row r of H by dinv(r) before the gather,
  and multiplies node n's aggregated row by dinv(n) afterwards (inside the second pallas_call for the first layer, on
  the host for the second). Roundings to bf16 and back are the identity on the extended reals.

  Why the two agree WITHOUT any finiteness of the inputs. dinv(n) is a nonnegative real for every value of deg(n)
  (the reciprocal root of a positive real is a positive real, of +inf it is 0, elsewhere the guard picks 0), and a
  product with a nonnegative real distributes over every finite sum of extended reals. A message that lands on node n
  comes from an edge whose target word reads as n, in range, so the reference's gather of dinv at that word — wrapped if
  negative, clamped into range — reads dinv(n) itself. With associativity of the product that is all: the reference's
  edge sum is the kernel's, times dinv(n). So the precondition is never opened.

  The frames of the two kernel programs are generated; the reference's frame is its run with the result dropped; the
  idealization rewrote nothing, so `preserves` is `True`.
-/
import proofs.«148502_j3307124818738_2_alg».proof.Defs
import proofs.«148502_j3307124818738_2_alg».proof.Proof.Gen.Kernel
import proofs.«148502_j3307124818738_2_alg».proof.Proof.Gen.Kernel.Skeleton
import proofs.«148502_j3307124818738_2_alg».proof.Proof.Gen.Kernel.Launch
import proofs.«148502_j3307124818738_2_alg».proof.Proof.Gen.Kernel.Points
import proofs.«148502_j3307124818738_2_alg».proof.Proof.Gen.Kernel.Frame
import proofs.«148502_j3307124818738_2_alg».proof.Proof.Gen.KernelIdeal
import proofs.«148502_j3307124818738_2_alg».proof.Proof.Gen.KernelIdeal.Skeleton
import proofs.«148502_j3307124818738_2_alg».proof.Proof.Gen.KernelIdeal.Launch
import proofs.«148502_j3307124818738_2_alg».proof.Proof.Gen.KernelIdeal.Points
import proofs.«148502_j3307124818738_2_alg».proof.Proof.Gen.KernelIdeal.Frame
import proofs.«148502_j3307124818738_2_alg».proof.Proof.Gen.ReferenceIdeal
import proofs.«148502_j3307124818738_2_alg».proof.Proof.Gen.Pre_finite_inputs
import proofs.«148502_j3307124818738_2_alg».proof.Proof.RefRunP
import proofs.«148502_j3307124818738_2_alg».proof.Proof.RefReadP
import proofs.«148502_j3307124818738_2_alg».proof.Proof.KernelRun
import proofs.«148502_j3307124818738_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel and the idealized kernel run, fault-free, with their arguments unchanged. -/
theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both idealized programs end with the same result array: the kernel's, which entry by entry is the reference's. -/
theorem algebraic : Cert.algebraic_KernelIdeal_ReferenceIdeal := by
  intro m ρ m' ρ' _ hagree
  refine ⟨fun c => Cert.KernelIdeal.Gen.W7 (F := Ideal) m ρ c (Proc.devRef .tc Cert.KernelIdeal.main_v45),
    Cert.KernelIdeal.RunValue.run (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v64_eq, (hagree c).1, (hagree c).2.1, (hagree c).2.2.1, (hagree c).2.2.2.1,
    (hagree c).2.2.2.2.1, (hagree c).2.2.2.2.2]
  exact (Cert.Bridge.value m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
